-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S32000x2048 : Shape := ⟨2, ![32000, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32000x2048 : S_.BroadcastsInDim S32000x2048 (![] : Fin 0 → Fin S32000x2048.rank)
  reducesTo_S32000x2048_S_d0_1 : S32000x2048.ReducesTo [0, 1] S_

variable [Facts]

def fn_part1 {F : FTy → Type} [FloatOps F] (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  main_v18

def fn {F : FTy → Type} [FloatOps F] (main_arg0 : FVec F S2048x2048 .f32) (main_arg1 : FVec F S32000x2048 .f32) (main_arg2 : FVec F S2048x2048 .f32) (main_arg3 : FVec F S32000x2048 .f32) (main_arg4 : IVec S2048 32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S32000x2048 .f32 := Host.absf main_arg3
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_v13 main_v16
-- ==== Kernel.lean ====
abbrev S2048x2048 : Shape := ⟨2, ![2048, 2048]⟩
abbrev S32000x2048 : Shape := ⟨2, ![32000, 2048]⟩
abbrev S2048 : Shape := ⟨1, ![2048]⟩
abbrev S2048x32000 : Shape := ⟨2, ![2048, 32000]⟩
abbrev S256x2048 : Shape := ⟨2, ![256, 2048]⟩
abbrev S1280x2048 : Shape := ⟨2, ![1280, 2048]⟩
abbrev S256x1280 : Shape := ⟨2, ![256, 1280]⟩
abbrev S_ : Shape := ⟨0, ![]⟩
abbrev S2048x1 : Shape := ⟨2, ![2048, 1]⟩
abbrev S16x32000 : Shape := ⟨2, ![16, 32000]⟩
abbrev S16x1 : Shape := ⟨2, ![16, 1]⟩
abbrev S16 : Shape := ⟨1, ![16]⟩

abbrev nBuf : Space → Nat
  | .hbm => 20
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S32000x2048, .f32⟩
  | .hbm, ⟨2, _⟩ => ⟨S2048x2048, .f32⟩
  | .hbm, ⟨3, _⟩ => ⟨S32000x2048, .f32⟩
  | .hbm, ⟨4, _⟩ => ⟨S2048, .i32⟩
  | .hbm, ⟨5, _⟩ => ⟨S2048x32000, .f32⟩
  | .hbm, ⟨6, _⟩ => ⟨S2048x32000, .f32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S2048, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S1280x2048, .f32⟩
  | .local _ .vmem, ⟨3, _⟩ => ⟨S1280x2048, .f32⟩
  | .local _ .vmem, ⟨4, _⟩ => ⟨S256x1280, .f32⟩
  | .local _ .vmem, ⟨5, _⟩ => ⟨S256x1280, .f32⟩
  | .local _ .vmem, ⟨6, _⟩ => ⟨S256x2048, .f32⟩
  | .local _ .vmem, ⟨7, _⟩ => ⟨S256x2048, .f32⟩
  | .local _ .vmem, ⟨8, _⟩ => ⟨S1280x2048, .f32⟩
  | .local _ .vmem, ⟨9, _⟩ => ⟨S1280x2048, .f32⟩
  | .local _ .vmem, ⟨10, _⟩ => ⟨S256x1280, .f32⟩
  | .local _ .vmem, ⟨11, _⟩ => ⟨S256x1280, .f32⟩
  | .local _ .vmem, ⟨12, _⟩ => ⟨S16x32000, .f32⟩
  | .local _ .vmem, ⟨13, _⟩ => ⟨S16x32000, .f32⟩
  | .local _ .vmem, ⟨14, _⟩ => ⟨S16x32000, .f32⟩
  | .local _ .vmem, ⟨15, _⟩ => ⟨S16x32000, .f32⟩
  | .local _ .vmem, ⟨16, _⟩ => ⟨S16x1, .f32⟩
  | .local _ .vmem, ⟨17, _⟩ => ⟨S16x1, .f32⟩
  | .local _ .vmem, ⟨18, _⟩ => ⟨S16x1, .f32⟩
  | .local _ .vmem, ⟨19, _⟩ => ⟨S16x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![8, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 25], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1280x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x32000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x32000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S16x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S1280x2048_S1280x2048_0_0 : ∀ a, (![0, 0] : Fin 2 → Nat) a + S1280x2048.size a ≤ S1280x2048.size a
  h_S1280x2048 : 0 < S1280x2048.numel
  inb_S256x1280_S256x1280_0_0 : ∀ a, (![0, 0] : Fin 2 → Nat) a + S256x1280.size a ≤ S256x1280.size a
  h_S256x1280 : 0 < S256x1280.numel
  bcast_S_S2048 : S_.BroadcastsInDim S2048 (![] : Fin 0 → Fin S2048.rank)
  shapeCasts_S2048_S2048x1 : S2048.ShapeCasts S2048x1
  inb_S16x32000_S16x32000_0_0 : ∀ a, (![0, 0] : Fin 2 → Nat) a + S16x32000.size a ≤ S16x32000.size a
  h_S16x32000 : 0 < S16x32000.numel
  shapeCasts_S16x32000_S16x32000 : S16x32000.ShapeCasts S16x32000
  reduces_S16x32000_S16 : S16x32000.Reduces [1] S16
  shapeCasts_S16_S16x1 : S16.ShapeCasts S16x1
  broadcasts_S16x1_S16x32000 : S16x1.Broadcasts S16x32000
  inb_S16x1_S16x1_0_0 : ∀ a, (![0, 0] : Fin 2 → Nat) a + S16x1.size a ≤ S16x1.size a
  h_S16x1 : 0 < S16x1.numel
  shapeCasts_S16x1_S16x1 : S16x1.ShapeCasts S16x1
  reducesTo_S2048x1_S_d0_1 : S2048x1.ReducesTo [0, 1] S_
  h_S_ : 0 < S_.numel
  dot_S256x2048_S1280x2048_S256x1280_1_1_0_0_n_n_wf : DotDims.WF S256x2048 S1280x2048 S256x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .f32 = 32 ∨ (Rect.block (s := S32000x2048) S1280x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1280.size a ≤ S2048x32000.size a
  hwx0_2 : ∀ i : grid0.Coords, EltTy.bits .f32 = 32 ∨ (Rect.block (s := S2048x32000) S256x1280.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .f32 = 32 ∨ (Rect.block (s := S2048x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x2048.size a ≤ S32000x2048.size a
  hwx1_1 : ∀ i : grid1.Coords, EltTy.bits .f32 = 32 ∨ (Rect.block (s := S32000x2048) S1280x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1280.size a ≤ S2048x32000.size a
  hwx1_2 : ∀ i : grid1.Coords, EltTy.bits .f32 = 32 ∨ (Rect.block (s := S2048x32000) S256x1280.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x32000.size a ≤ S2048x32000.size a
  hwx2_0 : ∀ i : grid2.Coords, EltTy.bits .f32 = 32 ∨ (Rect.block (s := S2048x32000) S16x32000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x32000.size a ≤ S2048x32000.size a
  hwx2_1 : ∀ i : grid2.Coords, EltTy.bits .f32 = 32 ∨ (Rect.block (s := S2048x32000) S16x32000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16x1.size a ≤ S2048x1.size a
  hwx2_2 : ∀ i : grid2.Coords, EltTy.bits .f32 = 32 ∨ (Rect.block (s := S2048x1) S16x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16x1.size a ≤ S2048x1.size a
  hwx2_3 : ∀ i : grid2.Coords, EltTy.bits .f32 = 32 ∨ (Rect.block (s := S2048x1) S16x1.size (cc2_transform_3 i) (hinb2_3 i)).WholeWords (EltTy.packing .f32)

variable [Facts₀]

def dot_S256x2048_S1280x2048_S256x1280_1_1_0_0_n_n : DotDims S256x2048 S1280x2048 S256x1280 where
  lhsContracting := [1]
  rhsContracting := [1]
  lhsNonContracting := [0]
  rhsNonContracting := [0]
  lhsBatch := []
  rhsBatch := []
  wf := dot_S256x2048_S1280x2048_S256x1280_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1280.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1280x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x1280.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S16x32000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S16x32000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S16x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S16x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x2048 : Shape := ⟨2, ![2048, 2048]⟩
abbrev S32000x2048 : Shape := ⟨2, ![32000, 2048]⟩
abbrev S2048 : Shape := ⟨1, ![2048]⟩
abbrev S2048x32000 : Shape := ⟨2, ![2048, 32000]⟩
abbrev S_ : Shape := ⟨0, ![]⟩
abbrev S2048x1 : Shape := ⟨2, ![2048, 1]⟩

abbrev nBuf : Space → Nat
  | .hbm => 82
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S32000x2048, .f32⟩
  | .hbm, ⟨2, _⟩ => ⟨S2048x2048, .f32⟩
  | .hbm, ⟨3, _⟩ => ⟨S32000x2048, .f32⟩
  | .hbm, ⟨4, _⟩ => ⟨S2048, .i32⟩
  | .hbm, ⟨5, _⟩ => ⟨S2048x32000, .f32⟩
  | .hbm, ⟨6, _⟩ => ⟨S2048x32000, .f32⟩
  | .hbm, ⟨7, _⟩ => ⟨S_, .f32⟩
  | .hbm, ⟨8, _⟩ => ⟨S2048x32000, .f32⟩
  | .hbm, ⟨9, _⟩ => ⟨S2048x32000, .f32⟩
  | .hbm, ⟨10, _⟩ => ⟨S_, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S2048x1, .f32⟩
  | .hbm, ⟨16, _⟩ => ⟨S2048x32000, .f32⟩
  | .hbm, ⟨17, _⟩ => ⟨S2048x32000, .f32⟩
  | .hbm, ⟨18, _⟩ => ⟨S2048x32000, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S2048x1, .f32⟩
  | .hbm, ⟨23, _⟩ => ⟨S2048x32000, .f32⟩
  | .hbm, ⟨24, _⟩ => ⟨S2048x32000, .f32⟩
  | .hbm, ⟨25, _⟩ => ⟨S_, .f32⟩
  | .hbm, ⟨26, _⟩ => ⟨S2048x32000, .f32⟩
  | .hbm, ⟨27, _⟩ => ⟨S2048x32000, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048x1, .f32⟩
  | .hbm, ⟨34, _⟩ => ⟨S2048x32000, .f32⟩
  | .hbm, ⟨35, _⟩ => ⟨S2048x32000, .f32⟩
  | .hbm, ⟨36, _⟩ => ⟨S2048x32000, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1, .f32⟩
  | .hbm, ⟨41, _⟩ => ⟨S2048x32000, .f32⟩
  | .hbm, ⟨42, _⟩ => ⟨S2048x32000, .f32⟩
  | .hbm, ⟨43, _⟩ => ⟨S2048x32000, .f32⟩
  | .hbm, ⟨44, _⟩ => ⟨S2048x32000, .f32⟩
  | .hbm, ⟨45, _⟩ => ⟨S_, .f32⟩
  | .hbm, ⟨46, _⟩ => ⟨S2048x32000, .f32⟩
  | .hbm, ⟨47, _⟩ => ⟨S2048x32000, .f32⟩
  | .hbm, ⟨48, _⟩ => ⟨S_, .f32⟩
  | .hbm, ⟨49, _⟩ => ⟨S2048x32000, .f32⟩
  | .hbm, ⟨50, _⟩ => ⟨S2048x32000, .f32⟩
  | .hbm, ⟨51, _⟩ => ⟨S2048x32000, .f32⟩
  | .hbm, ⟨52, _⟩ => ⟨S2048x32000, .f32⟩
  | .hbm, ⟨53, _⟩ => ⟨S_, .f32⟩
  | .hbm, ⟨54, _⟩ => ⟨S2048x32000, .f32⟩
  | .hbm, ⟨55, _⟩ => ⟨S2048x32000, .f32⟩
  | .hbm, ⟨56, _⟩ => ⟨S2048x32000, .f32⟩
  | .hbm, ⟨57, _⟩ => ⟨S2048x32000, .f32⟩
  | .hbm, ⟨58, _⟩ => ⟨S_, .f32⟩
  | .hbm, ⟨59, _⟩ => ⟨S2048x32000, .f32⟩
  | .hbm, ⟨60, _⟩ => ⟨S2048x32000, .f32⟩
  | .hbm, ⟨61, _⟩ => ⟨S2048x32000, .f32⟩
  | .hbm, ⟨62, _⟩ => ⟨S2048x32000, .f32⟩
  | .hbm, ⟨63, _⟩ => ⟨S2048x32000, .f32⟩
  | .hbm, ⟨64, _⟩ => ⟨S_, .f32⟩
  | .hbm, ⟨65, _⟩ => ⟨S2048, .f32⟩
  | .hbm, ⟨66, _⟩ => ⟨S_, .i32⟩
  | .hbm, ⟨67, _⟩ => ⟨S2048, .i32⟩
  | .hbm, ⟨68, _⟩ => ⟨S2048, .i1⟩
  | .hbm, ⟨69, _⟩ => ⟨S2048, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S2048, .f32⟩
  | .hbm, ⟨78, _⟩ => ⟨S2048, .f32⟩
  | .hbm, ⟨79, _⟩ => ⟨S_, .f32⟩
  | .hbm, ⟨80, _⟩ => ⟨S_, .f32⟩
  | .hbm, ⟨81, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_call1_cst : Ref sig .tc := ⟨.hbm, 28, rfl⟩
abbrev main_call1_v0 : Ref sig .tc := ⟨.hbm, 29, rfl⟩
abbrev main_call1_cst_0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_cst_1 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst_1 : Ref sig .tc := ⟨.hbm, 45, rfl⟩
abbrev main_v10 : Ref sig .tc := ⟨.hbm, 46, rfl⟩
abbrev main_v11 : Ref sig .tc := ⟨.hbm, 47, rfl⟩
abbrev main_cst_2 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst_3 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst_4 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_5 : Ref sig .tc := ⟨.hbm, 64, rfl⟩
abbrev main_v25 : Ref sig .tc := ⟨.hbm, 65, rfl⟩
abbrev main_c : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_c_6 : Ref sig .tc := ⟨.hbm, 70, rfl⟩
abbrev main_v29 : Ref sig .tc := ⟨.hbm, 71, rfl⟩
abbrev main_c_7 : Ref sig .tc := ⟨.hbm, 72, rfl⟩
abbrev main_v30 : Ref sig .tc := ⟨.hbm, 73, rfl⟩
abbrev main_v31 : Ref sig .tc := ⟨.hbm, 74, rfl⟩
abbrev main_cst_8 : Ref sig .tc := ⟨.hbm, 75, rfl⟩
abbrev main_call2_v0 : Ref sig .tc := ⟨.hbm, 76, rfl⟩
abbrev main_call2_v1 : Ref sig .tc := ⟨.hbm, 77, rfl⟩
abbrev main_v32 : Ref sig .tc := ⟨.hbm, 78, rfl⟩
abbrev main_cst_9 : Ref sig .tc := ⟨.hbm, 79, rfl⟩
abbrev main_v33 : Ref sig .tc := ⟨.hbm, 80, rfl⟩
abbrev main_v34 : Ref sig .tc := ⟨.hbm, 81, rfl⟩

abbrev nD : Nat := 1
abbrev τ : Topo := Topo.v7x

variable {F : FTy → Type} [FloatOps F]

class Facts₀ : Prop where
  bcast_S_S2048x32000 : S_.BroadcastsInDim S2048x32000 (![] : Fin 0 → Fin S2048x32000.rank)
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  natLt_1_32 : 1 < 32
  reducesTo_S2048_S_d0 : S2048.ReducesTo [0] S_
  dot_S2048x2048_S32000x2048_S2048x32000_1_1_0_0_n_n_wf : DotDims.WF S2048x2048 S32000x2048 S2048x32000 [1] [1] [0] [0] [] []

variable [Facts₀]

def dot_S2048x2048_S32000x2048_S2048x32000_1_1_0_0_n_n : DotDims S2048x2048 S32000x2048 S2048x32000 where
  lhsContracting := [1]
  rhsContracting := [1]
  lhsNonContracting := [0]
  rhsNonContracting := [0]
  lhsBatch := []
  rhsBatch := []
  wf := dot_S2048x2048_S32000x2048_S2048x32000_1_1_0_0_n_n_wf

class Facts : Prop extends Facts₀ where

variable [Facts]
-- ==== Proof.KernelRun.lean ====
/-
  The idealized kernel's whole run, with its RESULT named.

  The generated frame of this three-call program runs @main as five segments (two matrix-product calls, a stretch of
  host operations that builds the mask, the row-loss call, a stretch of host operations that sums and divides) and
  keeps only "the arguments end unchanged" of what the last thread state knows. The same run knows every unscoped
  buffer's final contents: the fold `W5` of the segments over the launch memory. Here the result buffer is kept too:
  after the run it holds `W5` at the result's reference.
-/
import proofs.«117538_j8796093022766_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.ResultRun

end
-- ==== Proof.Spec.lean ====
/-
  The mathematics of the loss, with no program in sight.

  Two linear layers give logits s = x_s · W_sᵀ and t = x_t · W_tᵀ (2048 rows of 32000 entries). Per row, with M the
  row's maximum and Z = ∑ exp (row − M), the log-probabilities are row − (M + log Z); with Q = exp (log-prob of s),
  P = exp (log-prob of t) and m = P/2 + Q/2 the row's generalized Jensen–Shannon term is
  ∑ (P/2) (log P − log m) + (Q/2) (log Q − log m). Rows whose label is −100 are dropped, and the total is divided by
  the number of rows kept (at least 1).

  One program subtracts M + log Z from the row (`lpSum`), the other subtracts M and then log Z (`lpTwo`); one
  multiplies each row's term by a 0/1 mask and counts the mask in floating point (`lossMasked`), the other selects
  the term or 0 and counts in 32-bit integers (`lossSelected`). `Bridge.lean` proves the two agree when the logits
  are real numbers.
-/
import Idealize.ShloMosaic.PureOps.Ideal
import Idealize.ShloMosaic.PureOps.Reduce
import Idealize.ShloMosaic.Lib.ValueIdx

noncomputable section

open scoped BigOperators

namespace Cert.JSD

open Idealize.ShloMosaic Idealize.ShloMosaic.ValueIdx

/-- The four float literals of both programs, as the extended reals their bit patterns denote. -/
abbrev negInf : EReal := Ideal.ofBits .f32 0xFF800000#32
abbrev half : EReal := Ideal.ofBits .f32 0x3F000000#32
abbrev zero : EReal := Ideal.ofBits .f32 0x00000000#32
abbrev one : EReal := Ideal.ofBits .f32 0x3F800000#32

/-- The shapes of the inputs and of the logits. -/
abbrev SX : Shape := ⟨2, ![2048, 2048]⟩
abbrev SW : Shape := ⟨2, ![32000, 2048]⟩
abbrev SL : Shape := ⟨2, ![2048, 32000]⟩
abbrev SLab : Shape := ⟨1, ![2048]⟩

/-- Entry (b, v) of x · Wᵀ: the sum over the hidden coordinate. -/
def logit (x : SX.Idx → EReal) (w : SW.Idx → EReal) (b : Fin 2048) (v : Fin 32000) : EReal :=
  ∑ k : Fin 2048, x (ix2 b k) * w (ix2 v k)

/-- The logits as an array. -/
def logits (x : SX.Idx → EReal) (w : SW.Idx → EReal) : SL.Idx → EReal := fun i => logit x w (i 0) (i 1)

section Row
variable {n : Nat}

/-- A row's maximum, as a fold of max from minus infinity. -/
def rowMax (s : Fin n → EReal) : EReal := (Finset.univ : Finset (Fin n)).fold max negInf s

/-- The row's sum of exponentials after the maximum is subtracted. -/
def expSum (s : Fin n → EReal) : EReal := ∑ c : Fin n, Ideal.exp (s c - rowMax s)

/-- The log-probability, subtracting the log-sum-exp M + log Z in one step. -/
def lpSum (s : Fin n → EReal) (j : Fin n) : EReal := s j - (rowMax s + Ideal.log (expSum s))

/-- The log-probability, subtracting M and then log Z. -/
def lpTwo (s : Fin n → EReal) (j : Fin n) : EReal := (s j - rowMax s) - Ideal.log (expSum s)

/-- One summand of the row's term, from the two log-probabilities lq = log Q (first) and lp = log P (second). -/
def term (lq lp : EReal) : EReal :=
  (half * Ideal.exp lp) * (lp - Ideal.log (half * Ideal.exp lp + half * Ideal.exp lq))
    + (half * Ideal.exp lq) * (lq - Ideal.log (half * Ideal.exp lp + half * Ideal.exp lq))

/-- The row's term: the sum of the summands along the row. -/
def rowLoss (lq lp : Fin n → EReal) : EReal := ∑ j : Fin n, term (lq j) (lp j)

end Row

/-- The bit "this row's label is not −100". -/
def keep (lbl : SLab.Idx → BitVec 32) (r : Fin 2048) : BitVec 1 := IntOp.cmpi .ne (lbl (ix1 r)) 4294967196#32

/-- The mask as a float: the bit read as 0 or 1. -/
def maskF (lbl : SLab.Idx → BitVec 32) (r : Fin 2048) : EReal := FloatOps.uitofp (F := Ideal) .f32 (keep lbl r)

/-- Row r of an array of logits. -/
def row (a : SL.Idx → EReal) (r : Fin 2048) : Fin 32000 → EReal := fun j => a (ix2 r j)

/-- The loss, masked by multiplication and normalised by the float count of the mask. -/
def lossMasked (s t : SL.Idx → EReal) (lbl : SLab.Idx → BitVec 32) : EReal :=
  Ideal.div (zero + ∑ r : Fin 2048, rowLoss (lpSum (row s r)) (lpSum (row t r)) * maskF lbl r)
    (max (zero + ∑ r : Fin 2048, maskF lbl r) one)

/-- The number of kept rows as a 32-bit word: the words 0 / 1 of the bits added up from 0. -/
def keptWord (lbl : SLab.Idx → BitVec 32) : BitVec 32 :=
  (Finset.univ : Finset (Fin 2048)).fold IntOp.addi 0#32 (fun r => (keep lbl r).setWidth 32)

/-- The loss, masked by selection and normalised by the integer count (at least 1) converted to a float. -/
def lossSelected (s t : SL.Idx → EReal) (lbl : SLab.Idx → BitVec 32) : EReal :=
  Ideal.div (zero + ∑ r : Fin 2048, Scalar.select (keep lbl r) (zero + rowLoss (lpTwo (row s r)) (lpTwo (row t r))) zero)
    (FloatOps.sitofp (F := Ideal) .f32 (IntOp.maxsi (keptWord lbl) 1#32))

end Cert.JSD

end
-- ==== Proof.Logits.lean ====
/-
  The two matrix-product calls: after each, its output array is the logits x · Wᵀ of the two arrays it reads.
-/
import proofs.«117538_j8796093022766_1_alg».proof.Proof.Gen.KernelIdeal.Frame
import proofs.«117538_j8796093022766_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.LogitsValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## One block product, entry by entry -/

/-- The word 0x3F800000 denotes the number one. -/
theorem one_word : Ideal.ofBits .f32 0x3F800000#32 = 1 := by
  simp [Ideal.ofBits, Ideal.ieee, -EReal.coe_mul]; norm_num

/-- The contraction of a [256,2048] block with a [1280,2048] block along their second axes. -/
abbrev blockDot : DotDims S256x2048 S1280x2048 S256x1280 := dot_S256x2048_S1280x2048_S256x1280_1_1_0_0_n_n

/-- The left operand is read at the output's row … -/
theorem lhs_row (j : S256x1280.Idx) (s : blockDot.contr.Idx) : (blockDot.lhsIdx j s 0).val = (j 0).val := by
  unfold DotDims.lhsIdx
  rw [dif_neg (show ¬(0 : Fin S256x2048.rank) ∈ blockDot.lhsBatch by decide), dif_pos (show (0 : Fin S256x2048.rank) ∈ blockDot.lhsNonContracting by decide)]
  rfl
/-- … and at the summation position; -/
theorem lhs_col (j : S256x1280.Idx) (s : blockDot.contr.Idx) : (blockDot.lhsIdx j s 1).val = (s ⟨0, by decide⟩).val :=
  blockDot.lhsIdx_val_of_single rfl j s
/-- the right operand at the output's column (its own row) … -/
theorem rhs_row (j : S256x1280.Idx) (s : blockDot.contr.Idx) : (blockDot.rhsIdx j s 0).val = (j 1).val := by
  unfold DotDims.rhsIdx
  rw [dif_neg (show ¬(0 : Fin S1280x2048.rank) ∈ blockDot.rhsBatch by decide), dif_pos (show (0 : Fin S1280x2048.rank) ∈ blockDot.rhsNonContracting by decide)]
  rfl
/-- … and at the summation position. -/
theorem rhs_col (j : S256x1280.Idx) (s : blockDot.contr.Idx) : (blockDot.rhsIdx j s 1).val = (s ⟨0, by decide⟩).val :=
  blockDot.rhsIdx_val_of_single rfl j s

/-- Entry (p, q) of the block the first call's body stores: x·1 is x, the two narrowings are the identity on extended
    reals, and the product into a zero accumulator is the plain sum over the 2048 hidden coordinates. -/
theorem payload0_apply (x0 : Vec Ideal S256x2048 .f32) (x1 : Vec Ideal S1280x2048 .f32) (p : Fin 256) (q : Fin 1280) :
    k0_pay1 (F := Ideal) x0 x1 (ix2 p q) = ∑ k : Fin 2048, x0 (ix2 p k) * x1 (ix2 q k) := by
  unfold k0_pay1
  refine (Ideal.matmul_constant_zero_apply blockDot none _ _ (ix2 p q)).trans ?_
  rw [← Equiv.sum_comp (ValueIdx.contrEquiv1 blockDot 2048 rfl rfl).symm]
  refine Finset.sum_congr rfl fun k _ => ?_
  have hk := ValueIdx.contrEquiv1_symm_val blockDot 2048 rfl rfl k
  have el : blockDot.lhsIdx (ix2 p q) ((ValueIdx.contrEquiv1 blockDot 2048 rfl rfl).symm k) = ix2 p k := funext fun a => Fin.ext (by
    match a with
    | ⟨0, _⟩ => exact lhs_row _ _
    | ⟨1, _⟩ => exact (lhs_col _ _).trans hk)
  have er : blockDot.rhsIdx (ix2 p q) ((ValueIdx.contrEquiv1 blockDot 2048 rfl rfl).symm k) = ix2 q k := funext fun a => Fin.ext (by
    match a with
    | ⟨0, _⟩ => exact rhs_row _ _
    | ⟨1, _⟩ => exact (rhs_col _ _).trans hk)
  rw [el, er]
  show x0 (ix2 p k) * Ideal.ofBits .f32 0x3F800000#32 * x1 (ix2 q k) = _
  rw [one_word, mul_one]

/-- The second call's body is the same term, so its stored block has the same entries. -/
theorem payload1_apply (x0 : Vec Ideal S256x2048 .f32) (x1 : Vec Ideal S1280x2048 .f32) (p : Fin 256) (q : Fin 1280) :
    k1_pay1 (F := Ideal) x0 x1 (ix2 p q) = ∑ k : Fin 2048, x0 (ix2 p k) * x1 (ix2 q k) :=
  payload0_apply x0 x1 p q

/-! ## The logits at an index given by its row and column -/

/-- The logits at the index with row b and column v: the sum over the hidden coordinate. -/
theorem logits_apply (x : Cert.JSD.SX.Idx → EReal) (w : Cert.JSD.SW.Idx → EReal) (i : Cert.JSD.SL.Idx)
    (b : Fin 2048) (v : Fin 32000) (hb : (i 0).val = b.val) (hv : (i 1).val = v.val) :
    Cert.JSD.logits x w i = ∑ k : Fin 2048, x (ix2 b k) * w (ix2 v k) := by
  have hi : i = ix2 b v := funext fun a => Fin.ext (by
    match a with
    | ⟨0, _⟩ => exact hb
    | ⟨1, _⟩ => exact hv)
  subst hi
  rfl

/-! ## The first call: blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the x window sits at the output's block row, the w window at the output's block
    column, both at block column 0; the output's block indices stay below 8 and 25. -/
theorem index_facts0 : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 24 :=
  (by decide +kernel : ∀ t : Fin grid0.N, _)

/-- Every block of the 8 × 25 tiling of the output is some point's. -/
theorem index_onto0 : ∀ (q0 : Fin 8) (q1 : Fin 25), ∃ t : Fin cfg0.N, win0_2.index t = ![q0.val, q1.val] :=
  (by decide +kernel : ∀ (q0 : Fin 8) (q1 : Fin 25), ∃ t : Fin grid0.N, win0_2.index t = ![q0.val, q1.val])

/-- The x window's block at point t, at (p, k), is x at row (block row) · 256 + p and column k. -/
theorem xblock0_apply (c : Dev nD) (t : Fin cfg0.N) (p : Fin 256) (k : Fin 2048) (i : S2048x2048.Idx)
    (h0 : (i 0).val = win0_0.index t (0 : Fin 2) * 256 + p.val) (h1 : (i 1).val = win0_0.index t (1 : Fin 2) * 2048 + k.val) :
    (iblk0 (F := Ideal) V c 0 t : Vec Ideal S256x2048 .f32) (ix2 p k) = (V c main_arg0 : S2048x2048.Idx → EReal) i := by
  unfold iblk0
  rw [View.read_apply]
  show V c main_arg0 _ = V c main_arg0 _
  congr 1
  funext a
  apply Fin.ext
  match a with
  | ⟨0, _⟩ => show win0_0.index t (0 : Fin 2) * 256 + 1 * p.val = (i 0).val; omega
  | ⟨1, _⟩ => show win0_0.index t (1 : Fin 2) * 2048 + 1 * k.val = (i 1).val; omega

/-- The w window's block at point t, at (q, k), is w at row (block row) · 1280 + q and column k. -/
theorem wblock0_apply (c : Dev nD) (t : Fin cfg0.N) (q : Fin 1280) (k : Fin 2048) (i : S32000x2048.Idx)
    (h0 : (i 0).val = win0_1.index t (0 : Fin 2) * 1280 + q.val) (h1 : (i 1).val = win0_1.index t (1 : Fin 2) * 2048 + k.val) :
    (iblk0 (F := Ideal) V c 1 t : Vec Ideal S1280x2048 .f32) (ix2 q k) = (V c main_arg1 : S32000x2048.Idx → EReal) i := by
  unfold iblk0
  rw [View.read_apply]
  show V c main_arg1 _ = V c main_arg1 _
  congr 1
  funext a
  apply Fin.ext
  match a with
  | ⟨0, _⟩ => show win0_1.index t (0 : Fin 2) * 1280 + 1 * q.val = (i 0).val; omega
  | ⟨1, _⟩ => show win0_1.index t (1 : Fin 2) * 2048 + 1 * k.val = (i 1).val; omega

/-- What point t writes back is its block of the logits: entry (p, q) of the stored block is the sum over k of
    x (256·i + p, k) · w (1280·j + q, k), where (i, j) is the output's block index at t. -/
theorem flushed0_eq (c : Dev nD) (t : Fin cfg0.N) :
    (dat0 (F := Ideal) V c).flushed 2 t
      = ((cfg0.win 2).blk t).view.read (Elt Ideal) (Cert.JSD.logits (V c main_arg0) (V c main_arg1)) := by
  show (cfg0.win 2).cut (grid0.coords t) ((dat0 V c).after 2 t) = _
  rw [after0_2]
  unfold out0_2
  rw [View.canon_unit_zero zero_offsets]
  simp only [View.ld_unit_zero (S := S256x2048) zero_offsets, View.ld_unit_zero (S := S1280x2048) zero_offsets]
  obtain ⟨e0, e1, e2, e3, e4, e5⟩ := index_facts0 t
  funext j
  obtain ⟨p, q, rfl⟩ : ∃ (p : Fin 256) (q : Fin 1280), j = ix2 p q := ⟨j 0, j 1, eq_ix2 j⟩
  have hp : p.val < 256 := p.isLt
  have hq : q.val < 1280 := q.isLt
  refine (payload0_apply (iblk0 V c 0 t) (iblk0 V c 1 t) p q).trans ?_
  rw [View.read_apply]
  refine Eq.trans ?_ (logits_apply (V c main_arg0) (V c main_arg1) _
    ⟨win0_2.index t (0 : Fin 2) * 256 + p.val, by omega⟩ ⟨win0_2.index t (1 : Fin 2) * 1280 + q.val, by omega⟩
    (show win0_2.index t (0 : Fin 2) * 256 + 1 * p.val = win0_2.index t (0 : Fin 2) * 256 + p.val by omega)
    (show win0_2.index t (1 : Fin 2) * 1280 + 1 * q.val = win0_2.index t (1 : Fin 2) * 1280 + q.val by omega)).symm
  refine Finset.sum_congr rfl fun k _ => ?_
  refine congrArg₂ (· * ·) (xblock0_apply V c t p k _ ?_ ?_) (wblock0_apply V c t q k _ ?_ ?_)
  · show win0_2.index t (0 : Fin 2) * 256 + p.val = win0_0.index t (0 : Fin 2) * 256 + p.val; omega
  · show k.val = win0_0.index t (1 : Fin 2) * 2048 + k.val; omega
  · show win0_2.index t (1 : Fin 2) * 1280 + q.val = win0_1.index t (0 : Fin 2) * 1280 + q.val; omega
  · show k.val = win0_1.index t (1 : Fin 2) * 2048 + k.val; omega

/-- An index of the output array lies in point t's block iff each coordinate lies in the block's range. -/
theorem mem_block0 (t : Fin cfg0.N) (i : S2048x32000.Idx) :
    i ∈ ((cfg0.win 2).blk t).view.set ↔ ∀ a : Fin 2, win0_2.index t a * S256x1280.size a ≤ (i a).val
      ∧ (i a).val < win0_2.index t a * S256x1280.size a + S256x1280.size a := by
  show i ∈ ((View.whole main_v0).slice (win0_2.rect t)).set ↔ _
  rw [View.set_slice_whole, Rect.mem_set_unit]
  exact Iff.rfl

/-- Row r lies in block row r / 256 and column v in block column v / 1280: every index is written back by some point. -/
theorem covered0 (i : S2048x32000.Idx) :
    ∃ t : Fin cfg0.N, (cfg0.win 2).flush t = true ∧ i ∈ ((cfg0.win 2).blk t).view.set := by
  have hi0 : (i 0).val < 2048 := (i 0).isLt
  have hi1 : (i 1).val < 32000 := (i 1).isLt
  obtain ⟨t, ht⟩ := index_onto0 ⟨(i 0).val / 256, by omega⟩ ⟨(i 1).val / 1280, by omega⟩
  have q0 : win0_2.index t (0 : Fin 2) = (i 0).val / 256 := congrFun ht 0
  have q1 : win0_2.index t (1 : Fin 2) = (i 1).val / 1280 := congrFun ht 1
  refine ⟨t, flush0_2 t, ?_⟩
  rw [mem_block0]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1280 ≤ (i 1).val ∧ (i 1).val < win0_2.index t (1 : Fin 2) * 1280 + 1280; omega

/-- After the first call, its output array (window 2) holds the logits of the arrays behind windows 0 and 1. -/
theorem region0_array (c : Dev nD) :
    (dat0 (F := Ideal) V c).arrAt 2 cfg0.N = Cert.JSD.logits (V c main_arg0) (V c main_arg1) :=
  (dat0 (F := Ideal) V c).arrAt_eq_of_cover 2 (Cert.JSD.logits (V c main_arg0) (V c main_arg1))
    (fun t _ => flushed0_eq V c t) covered0

/-! ## The second call: the same body on the other pair of arrays -/

/-- The index maps over the grid: the x window sits at the output's block row, the w window at the output's block
    column, both at block column 0; the output's block indices stay below 8 and 25. -/
theorem index_facts1 : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 7
    ∧ win1_2.index t (1 : Fin 2) ≤ 24 :=
  (by decide +kernel : ∀ t : Fin grid1.N, _)

/-- Every block of the 8 × 25 tiling of the output is some point's. -/
theorem index_onto1 : ∀ (q0 : Fin 8) (q1 : Fin 25), ∃ t : Fin cfg1.N, win1_2.index t = ![q0.val, q1.val] :=
  (by decide +kernel : ∀ (q0 : Fin 8) (q1 : Fin 25), ∃ t : Fin grid1.N, win1_2.index t = ![q0.val, q1.val])

/-- The x window's block at point t, at (p, k), is x at row (block row) · 256 + p and column k. -/
theorem xblock1_apply (c : Dev nD) (t : Fin cfg1.N) (p : Fin 256) (k : Fin 2048) (i : S2048x2048.Idx)
    (h0 : (i 0).val = win1_0.index t (0 : Fin 2) * 256 + p.val) (h1 : (i 1).val = win1_0.index t (1 : Fin 2) * 2048 + k.val) :
    (iblk1 (F := Ideal) V c 0 t : Vec Ideal S256x2048 .f32) (ix2 p k) = (V c main_arg2 : S2048x2048.Idx → EReal) i := by
  unfold iblk1
  rw [View.read_apply]
  show V c main_arg2 _ = V c main_arg2 _
  congr 1
  funext a
  apply Fin.ext
  match a with
  | ⟨0, _⟩ => show win1_0.index t (0 : Fin 2) * 256 + 1 * p.val = (i 0).val; omega
  | ⟨1, _⟩ => show win1_0.index t (1 : Fin 2) * 2048 + 1 * k.val = (i 1).val; omega

/-- The w window's block at point t, at (q, k), is w at row (block row) · 1280 + q and column k. -/
theorem wblock1_apply (c : Dev nD) (t : Fin cfg1.N) (q : Fin 1280) (k : Fin 2048) (i : S32000x2048.Idx)
    (h0 : (i 0).val = win1_1.index t (0 : Fin 2) * 1280 + q.val) (h1 : (i 1).val = win1_1.index t (1 : Fin 2) * 2048 + k.val) :
    (iblk1 (F := Ideal) V c 1 t : Vec Ideal S1280x2048 .f32) (ix2 q k) = (V c main_arg3 : S32000x2048.Idx → EReal) i := by
  unfold iblk1
  rw [View.read_apply]
  show V c main_arg3 _ = V c main_arg3 _
  congr 1
  funext a
  apply Fin.ext
  match a with
  | ⟨0, _⟩ => show win1_1.index t (0 : Fin 2) * 1280 + 1 * q.val = (i 0).val; omega
  | ⟨1, _⟩ => show win1_1.index t (1 : Fin 2) * 2048 + 1 * k.val = (i 1).val; omega

/-- What point t writes back is its block of the logits: entry (p, q) of the stored block is the sum over k of
    x (256·i + p, k) · w (1280·j + q, k), where (i, j) is the output's block index at t. -/
theorem flushed1_eq (c : Dev nD) (t : Fin cfg1.N) :
    (dat1 (F := Ideal) V c).flushed 2 t
      = ((cfg1.win 2).blk t).view.read (Elt Ideal) (Cert.JSD.logits (V c main_arg2) (V c main_arg3)) := by
  show (cfg1.win 2).cut (grid1.coords t) ((dat1 V c).after 2 t) = _
  rw [after1_2]
  unfold out1_2
  rw [View.canon_unit_zero zero_offsets]
  simp only [View.ld_unit_zero (S := S256x2048) zero_offsets, View.ld_unit_zero (S := S1280x2048) zero_offsets]
  obtain ⟨e0, e1, e2, e3, e4, e5⟩ := index_facts1 t
  funext j
  obtain ⟨p, q, rfl⟩ : ∃ (p : Fin 256) (q : Fin 1280), j = ix2 p q := ⟨j 0, j 1, eq_ix2 j⟩
  have hp : p.val < 256 := p.isLt
  have hq : q.val < 1280 := q.isLt
  refine (payload1_apply (iblk1 V c 0 t) (iblk1 V c 1 t) p q).trans ?_
  rw [View.read_apply]
  refine Eq.trans ?_ (logits_apply (V c main_arg2) (V c main_arg3) _
    ⟨win1_2.index t (0 : Fin 2) * 256 + p.val, by omega⟩ ⟨win1_2.index t (1 : Fin 2) * 1280 + q.val, by omega⟩
    (show win1_2.index t (0 : Fin 2) * 256 + 1 * p.val = win1_2.index t (0 : Fin 2) * 256 + p.val by omega)
    (show win1_2.index t (1 : Fin 2) * 1280 + 1 * q.val = win1_2.index t (1 : Fin 2) * 1280 + q.val by omega)).symm
  refine Finset.sum_congr rfl fun k _ => ?_
  refine congrArg₂ (· * ·) (xblock1_apply V c t p k _ ?_ ?_) (wblock1_apply V c t q k _ ?_ ?_)
  · show win1_2.index t (0 : Fin 2) * 256 + p.val = win1_0.index t (0 : Fin 2) * 256 + p.val; omega
  · show k.val = win1_0.index t (1 : Fin 2) * 2048 + k.val; omega
  · show win1_2.index t (1 : Fin 2) * 1280 + q.val = win1_1.index t (0 : Fin 2) * 1280 + q.val; omega
  · show k.val = win1_1.index t (1 : Fin 2) * 2048 + k.val; omega

/-- An index of the output array lies in point t's block iff each coordinate lies in the block's range. -/
theorem mem_block1 (t : Fin cfg1.N) (i : S2048x32000.Idx) :
    i ∈ ((cfg1.win 2).blk t).view.set ↔ ∀ a : Fin 2, win1_2.index t a * S256x1280.size a ≤ (i a).val
      ∧ (i a).val < win1_2.index t a * S256x1280.size a + S256x1280.size a := by
  show i ∈ ((View.whole main_v1).slice (win1_2.rect t)).set ↔ _
  rw [View.set_slice_whole, Rect.mem_set_unit]
  exact Iff.rfl

/-- Row r lies in block row r / 256 and column v in block column v / 1280: every index is written back by some point. -/
theorem covered1 (i : S2048x32000.Idx) :
    ∃ t : Fin cfg1.N, (cfg1.win 2).flush t = true ∧ i ∈ ((cfg1.win 2).blk t).view.set := by
  have hi0 : (i 0).val < 2048 := (i 0).isLt
  have hi1 : (i 1).val < 32000 := (i 1).isLt
  obtain ⟨t, ht⟩ := index_onto1 ⟨(i 0).val / 256, by omega⟩ ⟨(i 1).val / 1280, by omega⟩
  have q0 : win1_2.index t (0 : Fin 2) = (i 0).val / 256 := congrFun ht 0
  have q1 : win1_2.index t (1 : Fin 2) = (i 1).val / 1280 := congrFun ht 1
  refine ⟨t, flush1_2 t, ?_⟩
  rw [mem_block1]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 1280 ≤ (i 1).val ∧ (i 1).val < win1_2.index t (1 : Fin 2) * 1280 + 1280; omega

/-- After the second call, likewise: its output array holds the logits of the other pair of arrays. -/
theorem region1_array (c : Dev nD) :
    (dat1 (F := Ideal) V c).arrAt 2 cfg1.N = Cert.JSD.logits (V c main_arg2) (V c main_arg3) :=
  (dat1 (F := Ideal) V c).arrAt_eq_of_cover 2 (Cert.JSD.logits (V c main_arg2) (V c main_arg3))
    (fun t _ => flushed1_eq V c t) covered1

end Cert.KernelIdeal.LogitsValue

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«117538_j8796093022766_1_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.RowTerm.lean ====
/-
  The row-loss call's body, read at an index.

  The body holds 16 rows of student logits x0 and teacher logits x1. For each row it forms M = max of the row,
  the log-sum-exp M + log ∑ exp (row − M), the log-probabilities row − (M + log ∑ exp (row − M)), and sums the
  Jensen–Shannon summand of the two rows' log-probabilities along the row. The maxima and sums are kept as
  columns [16, 1] and broadcast back along the row. Read at (p, 0), the result is the row's loss of rows p of x0, x1;
  the last step multiplies it by the mask's entry.
-/
import proofs.«117538_j8796093022766_1_alg».proof.Proof.Gen.KernelIdeal.Skeleton
import proofs.«117538_j8796093022766_1_alg».proof.Proof.Spec
import proofs.«117538_j8796093022766_1_alg».proof.Proof.LibKeepdims
import proofs.«117538_j8796093022766_1_alg».proof.Proof.LibSoftmaxRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RowTerm

open Cert.KernelIdeal Cert.KernelIdeal.Gen
open Idealize.ShloMosaic Idealize.ShloMosaic.TcCoe Idealize.ShloMosaic.ValueIdx
open Cert.JSD (rowMax expSum lpSum term rowLoss half)

/-- The column of row maxima. -/
abbrev maxCol (x : FVec Ideal S16x32000 .f32) : FVec Ideal S16x1 .f32 :=
  shapeCast S16x1 (multiReduction .maximumf [1] S16 x 0xFF800000#32 reduces_S16x32000_S16 (.inl rfl) rfl) shapeCasts_S16_S16x1

/-- exp (x − M), M broadcast along the row. -/
abbrev expShift (x : FVec Ideal S16x32000 .f32) : FVec Ideal S16x32000 .f32 :=
  exp (subf x (broadcastTo S16x32000 (maxCol x) broadcasts_S16x1_S16x32000))

/-- The column of log-sum-exps M + log ∑ exp (x − M). -/
abbrev lseCol (x : FVec Ideal S16x32000 .f32) : FVec Ideal S16x1 .f32 :=
  addf (maxCol x) (log (shapeCast S16x1 (multiReduction .add [1] S16 (expShift x) 0x00000000#32 reduces_S16x32000_S16 (.inl rfl) rfl) shapeCasts_S16_S16x1))

/-- The log-probabilities x − (M + log ∑ exp (x − M)). -/
abbrev lpVec (x : FVec Ideal S16x32000 .f32) : FVec Ideal S16x32000 .f32 :=
  subf x (broadcastTo S16x32000 (lseCol x) broadcasts_S16x1_S16x32000)

/-- log (P/2 + Q/2) from a = log Q, b = log P. -/
abbrev logMix (a b : FVec Ideal S16x32000 .f32) : FVec Ideal S16x32000 .f32 :=
  log (addf (mulf (broadcast S16x32000 (Scalar.ofBits .f32 0x3F000000#32)) (exp b))
            (mulf (broadcast S16x32000 (Scalar.ofBits .f32 0x3F000000#32)) (exp a)))

/-- The summand array (P/2)(log P − log m) + (Q/2)(log Q − log m). -/
abbrev termVec (a b : FVec Ideal S16x32000 .f32) : FVec Ideal S16x32000 .f32 :=
  addf (mulf (mulf (broadcast S16x32000 (Scalar.ofBits .f32 0x3F000000#32)) (exp b)) (subf b (logMix a b)))
       (mulf (mulf (broadcast S16x32000 (Scalar.ofBits .f32 0x3F000000#32)) (exp a)) (subf a (logMix a b)))

/-- The body's first part is the row sums of the summand array of the two log-probability arrays, as a column. -/
theorem pay2_eq (x0 x1 : Vec Ideal S16x32000 .f32) :
    k2_pay2 x0 x1
      = shapeCast S16x1 (multiReduction .add [1] S16
          (termVec (lpVec (shapeCast S16x32000 x0 shapeCasts_S16x32000_S16x32000))
                   (lpVec (shapeCast S16x32000 x1 shapeCasts_S16x32000_S16x32000)))
          0x00000000#32 reduces_S16x32000_S16 (.inl rfl) rfl) shapeCasts_S16_S16x1 := rfl

/-- The logarithm and the exponential of an array, at an index. -/
theorem log_apply {s : Shape} {φ : FTy} (v : FVec Ideal s φ) (i : s.Idx) : log v i = Ideal.log (v i) := rfl
theorem exp_apply {s : Shape} {φ : FTy} (v : FVec Ideal s φ) (i : s.Idx) : exp v i = Ideal.exp (v i) := rfl

section Row
variable (x : FVec Ideal S16x32000 .f32) (p : Fin 16)

/-- The column of maxima at (p, z) is row p's maximum. -/
theorem maxCol_apply (z : Fin 1) : maxCol x (ix2 p z) = rowMax (fun c => x (ix2 p c)) :=
  (Keepdims.cast_col_apply _ shapeCasts_S16_S16x1 p z).trans
    (SoftmaxRows.rowMax2_apply x 0xFF800000#32 reduces_S16x32000_S16 (.inl rfl) rfl p)

/-- exp (x − M) at (p, c). -/
theorem expShift_apply (c : Fin 32000) :
    expShift x (ix2 p c) = Ideal.exp (x (ix2 p c) - rowMax (fun c => x (ix2 p c))) :=
  congrArg (fun M => Ideal.exp (x (ix2 p c) - M))
    ((Keepdims.bcast_col_apply (maxCol x) broadcasts_S16x1_S16x32000 p c).trans (maxCol_apply x p 0))

/-- The column of sums of exp (x − M) at (p, z). -/
theorem sumCol_apply (z : Fin 1) :
    shapeCast S16x1 (multiReduction .add [1] S16 (expShift x) 0x00000000#32 reduces_S16x32000_S16 (.inl rfl) rfl)
        shapeCasts_S16_S16x1 (ix2 p z) = expSum (fun c => x (ix2 p c)) :=
  (Keepdims.cast_col_apply _ shapeCasts_S16_S16x1 p z).trans
    ((Keepdims.rowSum2_apply (expShift x) 0x00000000#32 reduces_S16x32000_S16 (.inl rfl) rfl p).trans
      (Finset.sum_congr rfl fun c _ => expShift_apply x p c))

/-- The column of log-sum-exps at (p, z). -/
theorem lseCol_apply (z : Fin 1) :
    lseCol x (ix2 p z) = rowMax (fun c => x (ix2 p c)) + Ideal.log (expSum (fun c => x (ix2 p c))) := by
  refine (addf_apply _ _ _).trans ?_
  refine congrArg₂ (· + ·) (maxCol_apply x p z) ?_
  exact (log_apply _ _).trans (congrArg Ideal.log (sumCol_apply x p z))

/-- The log-probabilities at (p, c). -/
theorem lpVec_apply (c : Fin 32000) : lpVec x (ix2 p c) = lpSum (fun c => x (ix2 p c)) c :=
  congrArg (fun L => x (ix2 p c) - L)
    ((Keepdims.bcast_col_apply (lseCol x) broadcasts_S16x1_S16x32000 p c).trans (lseCol_apply x p 0))

end Row

/-- The summand array at an index is the summand of the two entries. -/
theorem termVec_apply (a b : FVec Ideal S16x32000 .f32) (i : S16x32000.Idx) : termVec a b i = term (a i) (b i) := rfl

/-- The body's first part at (p, z): the loss of rows p of the two blocks. -/
theorem pay2_apply (x0 x1 : Vec Ideal S16x32000 .f32) (p : Fin 16) (z : Fin 1) :
    k2_pay2 x0 x1 (ix2 p z) = rowLoss (lpSum (fun c => x0 (ix2 p c))) (lpSum (fun c => x1 (ix2 p c))) := by
  rw [pay2_eq, shapeCast_self, shapeCast_self]
  refine (Keepdims.cast_col_apply _ shapeCasts_S16_S16x1 p z).trans ?_
  refine (Keepdims.rowSum2_apply _ 0x00000000#32 reduces_S16x32000_S16 (.inl rfl) rfl p).trans ?_
  unfold rowLoss
  refine Finset.sum_congr rfl fun c _ => ?_
  rw [termVec_apply, lpVec_apply, lpVec_apply]

/-- The body's stored value at (p, z): that loss times the mask block's entry. -/
theorem pay1_apply (x0 x1 : Vec Ideal S16x32000 .f32) (x2 : Vec Ideal S16x1 .f32) (p : Fin 16) (z : Fin 1) :
    k2_pay1 (k2_pay2 x0 x1) x2 (ix2 p z)
      = rowLoss (lpSum (fun c => x0 (ix2 p c))) (lpSum (fun c => x1 (ix2 p c))) * x2 (ix2 p z) := by
  unfold k2_pay1
  rw [shapeCast_self]
  show k2_pay2 x0 x1 (ix2 p z) * x2 (ix2 p z) = _
  rw [pay2_apply]

end Cert.KernelIdeal.RowTerm

end
-- ==== Proof.Rows.lean ====
/-
  The row-loss call: after it, its output array (2048 rows of one entry) holds, in row r, the loss of rows r of the two
  logits arrays it reads, times the mask's entry r.
-/
import proofs.«117538_j8796093022766_1_alg».proof.Proof.Gen.KernelIdeal.Frame
import proofs.«117538_j8796093022766_1_alg».proof.Proof.Spec
import proofs.«117538_j8796093022766_1_alg».proof.Proof.RowTerm
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RowsValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- What the call's output array holds, from the three arrays it reads: the two logits arrays and the mask column. -/
def rowLosses (s t : Cert.JSD.SL.Idx → EReal) (mk : S2048x1.Idx → EReal) : S2048x1.Idx → EReal :=
  fun i => Cert.JSD.rowLoss (Cert.JSD.lpSum (Cert.JSD.row s (i 0))) (Cert.JSD.lpSum (Cert.JSD.row t (i 0))) * mk i

/-! ## The masked row losses at an index given by its row -/

/-- At an index in row r the masked row loss is the loss of rows r of the two arrays times the mask's entry there. -/
theorem rowLosses_apply (s t : Cert.JSD.SL.Idx → EReal) (mk : S2048x1.Idx → EReal) (i : S2048x1.Idx) (r : Fin 2048)
    (hr : (i 0).val = r.val) :
    rowLosses s t mk i
      = Cert.JSD.rowLoss (Cert.JSD.lpSum (Cert.JSD.row s r)) (Cert.JSD.lpSum (Cert.JSD.row t r)) * mk i :=
  congrArg (fun b : Fin 2048 => Cert.JSD.rowLoss (Cert.JSD.lpSum (Cert.JSD.row s b)) (Cert.JSD.lpSum (Cert.JSD.row t b)) * mk i)
    (Fin.ext hr : (i 0 : Fin 2048) = r)

/-- A masked row loss depends only on the two rows and the mask entry. -/
theorem masked_loss_congr {f f' g g' : Fin 32000 → EReal} {a a' : EReal} (hf : f = f') (hg : g = g') (ha : a = a') :
    Cert.JSD.rowLoss (Cert.JSD.lpSum f) (Cert.JSD.lpSum g) * a
      = Cert.JSD.rowLoss (Cert.JSD.lpSum f') (Cert.JSD.lpSum g') * a' := by
  subst hf hg ha
  rfl

/-! ## The third call: blocks to the array -/

theorem zero_offsets : (![0, 0] : Fin 2 → Nat) = fun _ => 0 := funext fun a => by fin_cases a <;> rfl

/-- The index maps over the grid of 128 points: all four windows sit at the same block row, at block column 0, and
    the block row stays below 128. -/
theorem index_facts2 : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = win2_3.index t (0 : Fin 2)
    ∧ win2_2.index t (1 : Fin 2) = 0
    ∧ win2_3.index t (0 : Fin 2) ≤ 127
    ∧ win2_3.index t (1 : Fin 2) = 0 :=
  (by decide +kernel : ∀ t : Fin grid2.N, _)

/-- Every one of the 128 blocks of 16 rows of the output is some point's. -/
theorem index_onto2 : ∀ q0 : Fin 128, ∃ t : Fin cfg2.N, win2_3.index t = ![q0.val, 0] :=
  (by decide +kernel : ∀ q0 : Fin 128, ∃ t : Fin grid2.N, win2_3.index t = ![q0.val, 0])

/-- The first logits window's block at point t, at (p, j), is the array at row (block row) · 16 + p and column j. -/
theorem sblock2_apply (c : Dev nD) (t : Fin cfg2.N) (p : Fin 16) (j : Fin 32000) (i : S2048x32000.Idx)
    (h0 : (i 0).val = win2_0.index t (0 : Fin 2) * 16 + p.val) (h1 : (i 1).val = win2_0.index t (1 : Fin 2) * 32000 + j.val) :
    (iblk2 (F := Ideal) V c 0 t : Vec Ideal S16x32000 .f32) (ix2 p j) = (V c main_v0 : S2048x32000.Idx → EReal) i := by
  unfold iblk2
  rw [View.read_apply]
  show V c main_v0 _ = V c main_v0 _
  congr 1
  funext a
  apply Fin.ext
  match a with
  | ⟨0, _⟩ => show win2_0.index t (0 : Fin 2) * 16 + 1 * p.val = (i 0).val; omega
  | ⟨1, _⟩ => show win2_0.index t (1 : Fin 2) * 32000 + 1 * j.val = (i 1).val; omega

/-- The second logits window's block likewise. -/
theorem tblock2_apply (c : Dev nD) (t : Fin cfg2.N) (p : Fin 16) (j : Fin 32000) (i : S2048x32000.Idx)
    (h0 : (i 0).val = win2_1.index t (0 : Fin 2) * 16 + p.val) (h1 : (i 1).val = win2_1.index t (1 : Fin 2) * 32000 + j.val) :
    (iblk2 (F := Ideal) V c 1 t : Vec Ideal S16x32000 .f32) (ix2 p j) = (V c main_v1 : S2048x32000.Idx → EReal) i := by
  unfold iblk2
  rw [View.read_apply]
  show V c main_v1 _ = V c main_v1 _
  congr 1
  funext a
  apply Fin.ext
  match a with
  | ⟨0, _⟩ => show win2_1.index t (0 : Fin 2) * 16 + 1 * p.val = (i 0).val; omega
  | ⟨1, _⟩ => show win2_1.index t (1 : Fin 2) * 32000 + 1 * j.val = (i 1).val; omega

/-- The mask window's block at point t, at (p, z), is the mask column at row (block row) · 16 + p. -/
theorem mblock2_apply (c : Dev nD) (t : Fin cfg2.N) (p : Fin 16) (z : Fin 1) (i : S2048x1.Idx)
    (h0 : (i 0).val = win2_2.index t (0 : Fin 2) * 16 + p.val) (h1 : (i 1).val = win2_2.index t (1 : Fin 2) * 1 + z.val) :
    (iblk2 (F := Ideal) V c 2 t : Vec Ideal S16x1 .f32) (ix2 p z) = (V c main_v5 : S2048x1.Idx → EReal) i := by
  unfold iblk2
  rw [View.read_apply]
  show V c main_v5 _ = V c main_v5 _
  congr 1
  funext a
  apply Fin.ext
  match a with
  | ⟨0, _⟩ => show win2_2.index t (0 : Fin 2) * 16 + 1 * p.val = (i 0).val; omega
  | ⟨1, _⟩ => show win2_2.index t (1 : Fin 2) * 1 + 1 * z.val = (i 1).val; omega

/-- What point t writes back is its block of the masked row losses: entry (p, 0) of the stored block is the loss of
    rows 16·i + p of the two logits arrays times the mask's entry 16·i + p, where i is the block row at t. -/
theorem flushed2_eq (c : Dev nD) (t : Fin cfg2.N) :
    (dat2 (F := Ideal) V c).flushed 3 t
      = ((cfg2.win 3).blk t).view.read (Elt Ideal) (rowLosses (V c main_v0) (V c main_v1) (V c main_v5)) := by
  show (cfg2.win 3).cut (grid2.coords t) ((dat2 V c).after 3 t) = _
  rw [after2_3]
  unfold out2_3
  rw [View.canon_unit_zero zero_offsets]
  simp only [View.ld_unit_zero (S := S16x32000) zero_offsets, View.ld_unit_zero (S := S16x1) zero_offsets]
  obtain ⟨e0, e1, e2, e3, e4, e5, e6, e7⟩ := index_facts2 t
  funext y
  obtain ⟨p, z, rfl⟩ : ∃ (p : Fin 16) (z : Fin 1), y = ix2 p z := ⟨y 0, y 1, eq_ix2 y⟩
  have hp : p.val < 16 := p.isLt
  have hz : z.val < 1 := z.isLt
  refine (Cert.KernelIdeal.RowTerm.pay1_apply (iblk2 V c 0 t) (iblk2 V c 1 t) (iblk2 V c 2 t) p z).trans ?_
  rw [View.read_apply]
  refine Eq.trans ?_ (rowLosses_apply (V c main_v0) (V c main_v1) (V c main_v5) _
    ⟨win2_3.index t (0 : Fin 2) * 16 + p.val, by omega⟩
    (show win2_3.index t (0 : Fin 2) * 16 + 1 * p.val = win2_3.index t (0 : Fin 2) * 16 + p.val by omega)).symm
  refine masked_loss_congr (funext fun j => sblock2_apply V c t p j _ ?_ ?_) (funext fun j => tblock2_apply V c t p j _ ?_ ?_)
    (mblock2_apply V c t p z _ ?_ ?_)
  · show win2_3.index t (0 : Fin 2) * 16 + p.val = win2_0.index t (0 : Fin 2) * 16 + p.val; omega
  · show j.val = win2_0.index t (1 : Fin 2) * 32000 + j.val; omega
  · show win2_3.index t (0 : Fin 2) * 16 + p.val = win2_1.index t (0 : Fin 2) * 16 + p.val; omega
  · show j.val = win2_1.index t (1 : Fin 2) * 32000 + j.val; omega
  · show win2_3.index t (0 : Fin 2) * 16 + 1 * p.val = win2_2.index t (0 : Fin 2) * 16 + p.val; omega
  · show win2_3.index t (1 : Fin 2) * 1 + 1 * z.val = win2_2.index t (1 : Fin 2) * 1 + z.val; omega

/-- An index of the output column lies in point t's block iff each coordinate lies in the block's range. -/
theorem mem_block2 (t : Fin cfg2.N) (i : S2048x1.Idx) :
    i ∈ ((cfg2.win 3).blk t).view.set ↔ ∀ a : Fin 2, win2_3.index t a * S16x1.size a ≤ (i a).val
      ∧ (i a).val < win2_3.index t a * S16x1.size a + S16x1.size a := by
  show i ∈ ((View.whole main_v6).slice (win2_3.rect t)).set ↔ _
  rw [View.set_slice_whole, Rect.mem_set_unit]
  exact Iff.rfl

/-- Row r lies in block r / 16 (and the one column in block column 0): every index is written back by some point. -/
theorem covered2 (i : S2048x1.Idx) :
    ∃ t : Fin cfg2.N, (cfg2.win 3).flush t = true ∧ i ∈ ((cfg2.win 3).blk t).view.set := by
  have hi0 : (i 0).val < 2048 := (i 0).isLt
  have hi1 : (i 1).val < 1 := (i 1).isLt
  obtain ⟨t, ht⟩ := index_onto2 ⟨(i 0).val / 16, by omega⟩
  have q0 : win2_3.index t (0 : Fin 2) = (i 0).val / 16 := congrFun ht 0
  have q1 : win2_3.index t (1 : Fin 2) = 0 := congrFun ht 1
  refine ⟨t, flush2_3 t, ?_⟩
  rw [mem_block2]
  intro a
  match a with
  | ⟨0, _⟩ => show win2_3.index t (0 : Fin 2) * 16 ≤ (i 0).val ∧ (i 0).val < win2_3.index t (0 : Fin 2) * 16 + 16; omega
  | ⟨1, _⟩ => show win2_3.index t (1 : Fin 2) * 1 ≤ (i 1).val ∧ (i 1).val < win2_3.index t (1 : Fin 2) * 1 + 1; omega

/-- After the third call, its output array (window 3) holds the masked row losses of the arrays behind windows 0, 1, 2. -/
theorem region2_array (c : Dev nD) :
    (dat2 (F := Ideal) V c).arrAt 3 cfg2.N = rowLosses (V c main_v0) (V c main_v1) (V c main_v5) :=
  (dat2 (F := Ideal) V c).arrAt_eq_of_cover 3 (rowLosses (V c main_v0) (V c main_v1) (V c main_v5))
    (fun t _ => flushed2_eq V c t) covered2

end Cert.KernelIdeal.RowsValue

end
-- ==== Proof.KernelValue.lean ====
/-
  The idealized kernel's result as a function of its arguments.

  After the three calls the host sums the masked row losses, sums the mask, and divides the first sum by the larger of
  the second and 1. Walking the run's fold back from the result: the row losses are the third call's output array, of
  the first two calls' output arrays (the logits of the four float arguments) and of the mask column the host built
  from the labels; nothing in between writes an argument. So the result is the masked loss of the specification.
-/
import proofs.«117538_j8796093022766_1_alg».proof.Proof.KernelRun
import proofs.«117538_j8796093022766_1_alg».proof.Proof.Logits
import proofs.«117538_j8796093022766_1_alg».proof.Proof.Rows
import proofs.«117538_j8796093022766_1_alg».proof.Proof.Spec
import proofs.«117538_j8796093022766_1_alg».proof.Proof.LibKeepdims
import Idealize.ShloMosaic.Lib.StableHlo.Run
import Idealize.ShloMosaic.Lib.IdealHost
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ResultValue

open Cert.KernelIdeal Cert.KernelIdeal.Gen
open Idealize.ShloMosaic Idealize.ShloMosaic.TcCoe Idealize.ShloMosaic.ValueIdx Idealize.ShloMosaic.StableHlo
open Idealize.SL Idealize.SL.Sem

/-! ## The host's two stretches as functions -/

/-- The mask column the host builds from the labels: the bit "label ≠ −100" as a float, reshaped [2048] → [2048, 1]. -/
def maskCol (lbl : S2048.Idx → BitVec 32) : S2048x1.Idx → EReal :=
  shapeCast S2048x1 (uitofp (F := Ideal) .f32
    (cmpi .ne lbl (broadcastInDim S2048 ![] bcast_S_S2048 (constantI S_ 32 4294967196#32)))) shapeCasts_S2048_S2048x1

/-- The host's last operations: the sum of the row losses over the larger of the mask's sum and 1. -/
def tail (out mk : S2048x1.Idx → EReal) : S_.Idx → EReal :=
  Host.divf (F := Ideal)
    (Host.reduceAdd (F := Ideal) out (constant (F := Ideal) S_ .f32 0x00000000#32) reducesTo_S2048x1_S_d0_1 h_S_)
    (maximumf (F := Ideal)
      (Host.reduceAdd (F := Ideal) mk (constant (F := Ideal) S_ .f32 0x00000000#32) reducesTo_S2048x1_S_d0_1 h_S_)
      (constant (F := Ideal) S_ .f32 0x3F800000#32))

/-- The mask column at (r, z) is the specification's mask of row r. -/
theorem maskCol_apply (lbl : S2048.Idx → BitVec 32) (r : Fin 2048) (z : Fin 1) :
    maskCol lbl (ix2 r z) = Cert.JSD.maskF lbl r := by
  unfold maskCol
  refine (Keepdims.cast_col_apply _ shapeCasts_S2048_S2048x1 r z).trans ?_
  show FloatOps.uitofp (F := Ideal) .f32 (IntOp.cmpi .ne (lbl (ix1 r))
    (broadcastInDim S2048 ![] bcast_S_S2048 (constantI S_ 32 4294967196#32) (ix1 r))) = _
  rw [broadcastInDim_scalar_apply]
  rfl

/-- A sum over the indices of a column [n, 1] is the sum over its rows. -/
theorem sum_column {n : Nat} (f : (⟨2, ![n, 1]⟩ : Shape).Idx → EReal) : ∑ i, f i = ∑ r : Fin n, f (ix2 r 0) := by
  refine (Function.Bijective.sum_comp (e := fun r : Fin n => (ix2 r 0 : (⟨2, ![n, 1]⟩ : Shape).Idx)) ⟨?_, ?_⟩ f).symm
  · intro r r' e
    exact Fin.ext (congrArg (fun i : (⟨2, ![n, 1]⟩ : Shape).Idx => (i 0).val) e)
  · intro i
    refine ⟨i 0, ?_⟩
    rw [eq_ix2 i]
    refine congrArg (ix2 (i 0)) (Fin.ext ?_)
    have h1 : (i 1).val < 1 := (i 1).isLt
    show (0 : Nat) = (i 1).val
    omega

/-- The tail at its one index: the two plain sums and the quotient. -/
theorem tail_apply (out mk : S2048x1.Idx → EReal) (j : S_.Idx) :
    tail out mk j = Ideal.div (Cert.JSD.zero + ∑ r : Fin 2048, out (ix2 r 0))
      (max (Cert.JSD.zero + ∑ r : Fin 2048, mk (ix2 r 0)) Cert.JSD.one) := by
  have hsum : ∀ x : S2048x1.Idx → EReal,
      Host.reduceAdd (F := Ideal) x (constant (F := Ideal) S_ .f32 0x00000000#32) reducesTo_S2048x1_S_d0_1 h_S_ j
        = Cert.JSD.zero + ∑ r : Fin 2048, x (ix2 r 0) := fun x =>
    (hostReduceAdd_apply x _ reducesTo_S2048x1_S_d0_1 h_S_ j).trans
      ((Ideal.hostReduceAdd_total reducesTo_S2048x1_S_d0_1 (fun b => b.elim0) x _ j).trans
        (congrArg (Cert.JSD.zero + ·) (sum_column x)))
  show Ideal.div (Host.reduceAdd (F := Ideal) out _ reducesTo_S2048x1_S_d0_1 h_S_ j)
    (max (Host.reduceAdd (F := Ideal) mk _ reducesTo_S2048x1_S_d0_1 h_S_ j) Cert.JSD.one) = _
  rw [hsum, hsum]

/-! ## The fold, walked back -/

variable (m : (ℓ : Loc nD τ sig) → Buf (Elt Ideal) ℓ) (ρ : Dev nD → PrngReg)

/-- The labels reach the mask's construction as launched. -/
theorem labels_at_W2 (c : Dev nD) : W2 m ρ c (Proc.devRef .tc main_arg4) = m ((c : Thread nD τ).loc main_arg4) :=
  (W2_of_ne m ρ c main_arg4 (by decide)).trans (W1_of_ne m ρ c main_arg4 (by decide))

/-- The first call leaves the student logits. -/
theorem student_at_W1 (c : Dev nD) :
    W1 m ρ c (Proc.devRef .tc main_v0)
      = Cert.JSD.logits (m ((c : Thread nD τ).loc main_arg0)) (m ((c : Thread nD τ).loc main_arg1)) :=
  (W1_arr m ρ c 2).trans (LogitsValue.region0_array (V0 m ρ) c)

/-- The second call leaves the teacher logits (its arguments untouched by the first). -/
theorem teacher_at_W2 (c : Dev nD) :
    W2 m ρ c (Proc.devRef .tc main_v1)
      = Cert.JSD.logits (m ((c : Thread nD τ).loc main_arg2)) (m ((c : Thread nD τ).loc main_arg3)) :=
  (W2_arr m ρ c 2).trans ((LogitsValue.region1_array (V1 m ρ) c).trans
    (congrArg₂ Cert.JSD.logits (W1_of_ne m ρ c main_arg2 (by decide)) (W1_of_ne m ρ c main_arg3 (by decide))))

/-- The third call is entered with the student logits, … -/
theorem student_at_W3 (c : Dev nD) :
    W3 m ρ c (Proc.devRef .tc main_v0)
      = Cert.JSD.logits (m ((c : Thread nD τ).loc main_arg0)) (m ((c : Thread nD τ).loc main_arg1)) := by
  have e : W3 m ρ c (Proc.devRef .tc main_v0) = W2 m ρ c (Proc.devRef .tc main_v0) := by
    show StableHlo.after hostOps2 (W2 m ρ c) (Proc.devRef .tc main_v0) = _
    after_results
  exact e.trans ((W2_of_ne m ρ c main_v0 (by decide)).trans (student_at_W1 m ρ c))

/-- … the teacher logits, … -/
theorem teacher_at_W3 (c : Dev nD) :
    W3 m ρ c (Proc.devRef .tc main_v1)
      = Cert.JSD.logits (m ((c : Thread nD τ).loc main_arg2)) (m ((c : Thread nD τ).loc main_arg3)) := by
  have e : W3 m ρ c (Proc.devRef .tc main_v1) = W2 m ρ c (Proc.devRef .tc main_v1) := by
    show StableHlo.after hostOps2 (W2 m ρ c) (Proc.devRef .tc main_v1) = _
    after_results
  exact e.trans (teacher_at_W2 m ρ c)

/-- … and the mask column of the labels. -/
theorem mask_at_W3 (c : Dev nD) :
    W3 m ρ c (Proc.devRef .tc main_v5) = maskCol (m ((c : Thread nD τ).loc main_arg4)) := by
  have e : W3 m ρ c (Proc.devRef .tc main_v5) = maskCol (W2 m ρ c (Proc.devRef .tc main_arg4)) := by
    show StableHlo.after hostOps2 (W2 m ρ c) (Proc.devRef .tc main_v5) = _
    unfold maskCol
    after_results
    rfl
  exact e.trans (congrArg maskCol (labels_at_W2 m ρ c))

/-- The third call leaves the masked row losses, and its mask column as it found it. -/
theorem losses_at_W4 (c : Dev nD) :
    W4 m ρ c (Proc.devRef .tc main_v6)
      = RowsValue.rowLosses (Cert.JSD.logits (m ((c : Thread nD τ).loc main_arg0)) (m ((c : Thread nD τ).loc main_arg1)))
          (Cert.JSD.logits (m ((c : Thread nD τ).loc main_arg2)) (m ((c : Thread nD τ).loc main_arg3)))
          (maskCol (m ((c : Thread nD τ).loc main_arg4))) :=
  (W4_arr m ρ c 3).trans ((RowsValue.region2_array (V3 m ρ) c).trans
    (by rw [show V3 m ρ c main_v0 = _ from student_at_W3 m ρ c, show V3 m ρ c main_v1 = _ from teacher_at_W3 m ρ c,
      show V3 m ρ c main_v5 = _ from mask_at_W3 m ρ c]))

theorem mask_at_W4 (c : Dev nD) :
    W4 m ρ c (Proc.devRef .tc main_v5) = maskCol (m ((c : Thread nD τ).loc main_arg4)) :=
  (W4_arr m ρ c 2).trans (((dat2 (V3 m ρ) c).arrAt_in 2 rfl _).trans ((A_eq2 (V3 m ρ) c 2).trans (mask_at_W3 m ρ c)))

/-- The result buffer after the run holds the masked loss of the logits of the arguments. -/
theorem result_value (c : Dev nD) :
    W5 m ρ c (Proc.devRef .tc main_v10)
      = fun _ => Cert.JSD.lossMasked
          (Cert.JSD.logits (m ((c : Thread nD τ).loc main_arg0)) (m ((c : Thread nD τ).loc main_arg1)))
          (Cert.JSD.logits (m ((c : Thread nD τ).loc main_arg2)) (m ((c : Thread nD τ).loc main_arg3)))
          (m ((c : Thread nD τ).loc main_arg4)) := by
  have e : W5 m ρ c (Proc.devRef .tc main_v10)
      = tail (W4 m ρ c (Proc.devRef .tc main_v6)) (W4 m ρ c (Proc.devRef .tc main_v5)) := by
    show StableHlo.after hostOps3 (W4 m ρ c) (Proc.devRef .tc main_v10) = _
    unfold tail
    after_results
  rw [e, losses_at_W4, mask_at_W4]
  funext j
  rw [tail_apply]
  unfold Cert.JSD.lossMasked
  refine congrArg₂ Ideal.div (congrArg (Cert.JSD.zero + ·) (Finset.sum_congr rfl fun r _ => ?_))
    (congrArg (fun S => max (Cert.JSD.zero + S) Cert.JSD.one) (Finset.sum_congr rfl fun r _ => maskCol_apply _ r 0))
  show Cert.JSD.rowLoss _ _ * maskCol _ (ix2 r 0) = _
  rw [maskCol_apply]

end Cert.KernelIdeal.ResultValue

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.RefFuns.lean ====
/-
  The functions the reference's stages compute, each as its host operations compose, over variables: a matrix product, the
  quotient by the all-ones array, the log-softmax along the rows, the rows' divergence terms, and the total of the kept
  rows' terms over the count of kept rows.
-/
import proofs.«117538_j8796093022766_1_alg».proof.Proof.RefRunP
import proofs.«117538_j8796093022766_1_alg».proof.Proof.RefReadP
import proofs.«117538_j8796093022766_1_alg».proof.Proof.Spec
import proofs.«117538_j8796093022766_1_alg».proof.Proof.LibKeepdims
import proofs.«117538_j8796093022766_1_alg».proof.Proof.LibSoftmaxRows
import proofs.«117538_j8796093022766_1_alg».proof.Proof.LibHostReads
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.ShloMosaic.StableHlo
open Idealize.SL.Sem

/-! ## What each stage computes, as a function of the arrays it reads -/

abbrev CX := FVec Ideal S2048x2048 .f32
abbrev CW := FVec Ideal S32000x2048 .f32
abbrev C2 := FVec Ideal S2048x32000 .f32
abbrev C1 := FVec Ideal S2048 .f32
abbrev C0 := FVec Ideal S_ .f32
abbrev CL := IVec S2048 32

/-- The matrix product x · wᵀ as the host takes it. -/
def prod (x : CX) (w : CW) : C2 := Host.dotGeneral dot_S2048x2048_S32000x2048_S2048x32000_1_1_0_0_n_n none x w

/-- An array divided entrywise by the all-ones array. -/
def overOne (y : C2) : C2 :=
  Host.divf y (broadcastInDim S2048x32000 ![] bcast_S_S2048x32000 (constant S_ .f32 0x3F800000#32))

/-- The rows' maxima as the log-softmax takes them: the maximum of minus infinity and the reduction from minus infinity. -/
def rmax (x : C2) : C1 :=
  maximumf (broadcastInDim S2048 ![] bcast_S_S2048 (constant S_ .f32 0xFF800000#32))
    (Host.reduce FloatOps.maximumf x (constant S_ .f32 0xFF800000#32) reducesTo_S2048x32000_S2048_d1 h_S_)

/-- The array minus its rows' maxima. -/
def shifted (x : C2) : C2 :=
  subf x (broadcastInDim S2048x32000 ![0, 1] bcast_S2048x1_S2048x32000_0_1
    (broadcastInDim S2048x1 ![0] bcast_S2048_S2048x1_0 (rmax x)))

/-- The log-softmax along the rows, as its operations compose. -/
def lsm (x : C2) : C2 :=
  subf (shifted x) (broadcastInDim S2048x32000 ![0, 1] bcast_S2048x1_S2048x32000_0_1
    (Host.log (broadcastInDim S2048x1 ![0] bcast_S2048_S2048x1_0
      (Host.reduceAdd (Host.exp (shifted x)) (constant S_ .f32 0x00000000#32) reducesTo_S2048x32000_S2048_d1 h_S_))))

/-- The array of one half. -/
def halves : C2 := broadcastInDim S2048x32000 ![] bcast_S_S2048x32000 (constant S_ .f32 0x3F000000#32)

/-- The logarithm of the mixture, from the two log-probabilities. -/
def logMix (lq lp : C2) : C2 := Host.log (addf (mulf halves (Host.exp lp)) (mulf halves (Host.exp lq)))

/-- The rows' terms: the summand of the divergence summed along each row. -/
def rowTerms (lq lp : C2) : C1 :=
  Host.reduceAdd
    (addf (mulf (mulf halves (Host.exp lp)) (subf lp (logMix lq lp))) (mulf (mulf halves (Host.exp lq)) (subf lq (logMix lq lp))))
    (constant S_ .f32 0x00000000#32) reducesTo_S2048x32000_S2048_d1 h_S_

/-- The mask of the rows whose label is not −100. -/
def kept (lbl : CL) : IVec S2048 1 :=
  cmpi .ne lbl (broadcastInDim S2048 ![] bcast_S_S2048 (constantI S_ 32 4294967196#32))

/-- The total of the kept rows' terms over the number of kept rows (at least one). -/
def total (lbl : CL) (t : C1) : C0 :=
  Host.divf
    (Host.reduceAdd (select (kept lbl) t (broadcastInDim S2048 ![] bcast_S_S2048 (id (constant S_ .f32 0x00000000#32))))
      (constant S_ .f32 0x00000000#32) reducesTo_S2048_S_d0 h_S_)
    (sitofp .f32 (maxsi (Host.reduce IntOp.addi (extui 32 (kept lbl) natLt_1_32) (constantI S_ 32 0#32) reducesTo_S2048_S_d0 h_S_)
      (constantI S_ 32 1#32)))

end Cert.ReferenceIdeal.RefValue

end
-- ==== Proof.RefRows.lean ====
/-
  The functions the reference's stages compute — a matrix product over the all-ones array, the log-softmax along the rows,
  the rows' divergence terms, the total over the count of kept rows — each as its host operations compose, and each READ
  AT AN INDEX at the ideal values as the corresponding formula of the specification.
-/
import proofs.«117538_j8796093022766_1_alg».proof.Proof.RefFuns
import proofs.«117538_j8796093022766_1_alg».proof.Proof.RefReadP
import proofs.«117538_j8796093022766_1_alg».proof.Proof.Spec
import proofs.«117538_j8796093022766_1_alg».proof.Proof.LibKeepdims
import proofs.«117538_j8796093022766_1_alg».proof.Proof.LibSoftmaxRows
import proofs.«117538_j8796093022766_1_alg».proof.Proof.LibHostReads
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.ShloMosaic.StableHlo
open Idealize.SL.Sem

/-! ## Small facts about the literals and the host's reductions -/

/-- The f32 pattern of 1.0 denotes the real number 1. -/
theorem ofBits_one_f32 : Ideal.ofBits .f32 0x3F800000#32 = ((1 : ℝ) : EReal) := by
  simp [Ideal.ofBits, Ideal.ieee]
  first
    | exact_mod_cast (by norm_num : (8388608 : ℝ) * ((2 : ℝ) ^ 23)⁻¹ = 1)
    | (rw [← EReal.coe_mul]; exact_mod_cast (by norm_num : (8388608 : ℝ) * ((2 : ℝ) ^ 23)⁻¹ = 1))
    | (norm_cast; norm_num)

/-- The host's maximum over the second axis of a matrix, at row i: the fold of max from the initial value's element. -/
theorem hostRowMax2_apply {a b : Nat} {φ : FTy} {u : Shape} (x : (⟨2, ![a, b]⟩ : Shape).Idx → Ideal φ)
    (init : u.Idx → Ideal φ) (h' : (⟨2, ![a, b]⟩ : Shape).ReducesTo [1] ⟨1, ![a]⟩)
    (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun c => x (ix2 i c)) :=
  (Host.reduce_eq_fold_single (FloatOps.maximumf (F := Ideal) (φ := φ)) x init h' h hu (ix1 i)).trans
    (Finset.fold_congr fun c _ => congrArg x (funext fun d => Fin.ext (by
      match d with | ⟨0, _⟩ => rfl | ⟨1, _⟩ => rfl)))

/-! ## The stages at an index -/

/-- Dividing by the all-ones array changes nothing. -/
theorem overOne_eq (y : C2) : overOne y = y := by
  funext i
  show Ideal.div (y i) (broadcastInDim S2048x32000 ![] bcast_S_S2048x32000 (constant (F := Ideal) S_ .f32 0x3F800000#32) i) = y i
  rw [broadcastInDim_apply _ bcast_S_S2048x32000 _ i ix0 (fun a => a.elim0)]
  show Ideal.div (y i) (Ideal.ofBits .f32 0x3F800000#32) = y i
  rw [ofBits_one_f32, Ideal.div_coe one_ne_zero]
  simp

/-- The host's matrix product is the specification's logits. -/
theorem prod_eq (x : CX) (w : CW) : prod x w = Cert.JSD.logits x w := by
  funext i
  refine (Cert.ReferenceIdeal.Read.val_main_v0_apply x w i).trans ?_
  show _ = ∑ k : Fin 2048, x (ix2 (i 0) k) * w (ix2 (i 1) k)
  refine Finset.sum_congr rfl fun k _ => ?_
  refine congrArg₂ (· * ·) (congrArg x (funext fun a => ?_)) (congrArg w (funext fun a => ?_))
  · match a with | ⟨0, _⟩ => rfl | ⟨1, _⟩ => rfl
  · match a with | ⟨0, _⟩ => rfl | ⟨1, _⟩ => rfl

/-- The host's exponential and logarithm at an index are the extended reals' functions of the element. -/
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- The broadcast of the minus-infinity scalar reads minus infinity at every row. -/
theorem negInf_bcast_apply (r : Fin 2048) :
    broadcastInDim S2048 ![] bcast_S_S2048 (constant (F := Ideal) S_ .f32 0xFF800000#32) (ix1 r) = Cert.JSD.negInf :=
  broadcastInDim_apply _ bcast_S_S2048 _ (ix1 r) ix0 (fun a => a.elim0)

/-- The host's reduction of a row by maximum from minus infinity is the specification's row maximum. -/
theorem rowMaxHost_apply (x : C2) (r : Fin 2048) :
    Host.reduce (FloatOps.maximumf (F := Ideal) (φ := .f32)) x (constant (F := Ideal) S_ .f32 0xFF800000#32)
        reducesTo_S2048x32000_S2048_d1 h_S_ (ix1 r) = Cert.JSD.rowMax (Cert.JSD.row x r) :=
  hostRowMax2_apply x (constant (F := Ideal) S_ .f32 0xFF800000#32) reducesTo_S2048x32000_S2048_d1 (by decide) h_S_ r

/-- The rows' maxima are the specification's. -/
theorem rmax_apply (x : C2) (r : Fin 2048) : rmax x (ix1 r) = Cert.JSD.rowMax (Cert.JSD.row x r) := by
  unfold rmax
  rw [ValueIdx.maximumf_apply, negInf_bcast_apply r, rowMaxHost_apply x r]
  exact SoftmaxRows.max_fold_max_self Finset.univ Cert.JSD.negInf (Cert.JSD.row x r)

/-- The array minus its rows' maxima, at (r, j). -/
theorem shifted_apply (x : C2) (r : Fin 2048) (j : Fin 32000) :
    shifted x (ix2 r j) = x (ix2 r j) - Cert.JSD.rowMax (Cert.JSD.row x r) := by
  unfold shifted
  rw [ValueIdx.subf_apply]
  refine congrArg (x (ix2 r j) - ·) ?_
  exact (HostReads.bcast_col_apply bcast_S2048x1_S2048x32000_0_1 _ r j).trans
    ((HostReads.bcast_toCol_apply bcast_S2048_S2048x1_0 _ r 0).trans (rmax_apply x r))

/-- The host's sum of a row of exponentials from zero is the specification's sum. -/
theorem expSumHost_apply (x : C2) (r : Fin 2048) :
    Host.reduceAdd (Host.exp (shifted x)) (constant (F := Ideal) S_ .f32 0x00000000#32)
        reducesTo_S2048x32000_S2048_d1 h_S_ (ix1 r) = Cert.JSD.expSum (Cert.JSD.row x r) := by
  unfold Host.reduceAdd
  rw [Ideal.hostReduceAdd_def, HostReads.hostSum2_apply reducesTo_S2048x32000_S2048_d1 (by decide)]
  rw [ValueIdx.constant_apply, Ideal.ofBits_zero_f32, zero_add]
  unfold Cert.JSD.expSum
  exact Finset.sum_congr rfl fun c _ => (hostExp_apply _ _).trans (congrArg Ideal.exp (shifted_apply x r c))

/-- The log-softmax at (r, j): the specification's two-step log-probability of row r. -/
theorem lsm_apply (x : C2) (r : Fin 2048) (j : Fin 32000) :
    lsm x (ix2 r j) = Cert.JSD.lpTwo (Cert.JSD.row x r) j := by
  unfold lsm Cert.JSD.lpTwo
  rw [ValueIdx.subf_apply]
  refine congrArg₂ (· - ·) (shifted_apply x r j) ?_
  refine (HostReads.bcast_col_apply bcast_S2048x1_S2048x32000_0_1 _ r j).trans ?_
  refine (hostLog_apply _ _).trans (congrArg Ideal.log ?_)
  exact (HostReads.bcast_toCol_apply bcast_S2048_S2048x1_0 _ r 0).trans (expSumHost_apply x r)

/-- The array of one half reads one half everywhere. -/
theorem halves_apply (i : S2048x32000.Idx) : halves i = Cert.JSD.half :=
  broadcastInDim_apply _ bcast_S_S2048x32000 _ i ix0 (fun a => a.elim0)

/-- The summand at an index is the specification's term of the two log-probabilities there. -/
theorem summand_apply (lq lp : C2) (i : S2048x32000.Idx) :
    (addf (mulf (mulf halves (Host.exp lp)) (subf lp (logMix lq lp))) (mulf (mulf halves (Host.exp lq)) (subf lq (logMix lq lp)))) i
      = Cert.JSD.term (lq i) (lp i) := by
  unfold Cert.JSD.term
  rw [← halves_apply i]
  rfl

/-- The rows' terms at r: zero plus the specification's row term. -/
theorem rowTerms_apply (lq lp : C2) (r : Fin 2048) :
    rowTerms lq lp (ix1 r) = Cert.JSD.zero + Cert.JSD.rowLoss (Cert.JSD.row lq r) (Cert.JSD.row lp r) := by
  refine (HostReads.hostSum2_apply reducesTo_S2048x32000_S2048_d1 (by decide) _ _ r).trans ?_
  exact congrArg (Cert.JSD.zero + ·) (Finset.sum_congr rfl fun j _ => summand_apply lq lp (ix2 r j))

end Cert.ReferenceIdeal.RefValue

end
-- ==== Proof.RefLastB.lean ====
/-
  The reference's last stage at its one index: the kept rows' terms summed from zero, over the count of kept rows.
-/
import proofs.«117538_j8796093022766_1_alg».proof.Proof.RefFuns
import Idealize.ShloMosaic.Lib.IdealHost
import Idealize.ShloMosaic.Lib.ValueIdx
import Idealize.ShloMosaic.PureOps.Ideal.Laws
import Idealize.ShloMosaic.PureOps.Reduce

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.ShloMosaic.StableHlo
open Idealize.SL.Sem

/-! ## The last stage at its one index -/

/-- The mask at row r is the bit "the label of row r is not −100". -/
theorem kept_apply (lbl : CL) (r : Fin 2048) : kept lbl (ix1 r) = Cert.JSD.keep lbl r := by
  unfold kept
  show IntOp.cmpi .ne (lbl (ix1 r)) (broadcastInDim S2048 ![] bcast_S_S2048 (constantI S_ 32 4294967196#32) (ix1 r)) = _
  rw [broadcastInDim_scalar_apply]
  rfl

/-- A sum over the indices of a vector [n] is the sum over its coordinates. -/
theorem sum_vector {n : Nat} (f : (⟨1, ![n]⟩ : Shape).Idx → EReal) : ∑ i, f i = ∑ r : Fin n, f (ix1 r) := by
  refine (Function.Bijective.sum_comp (e := fun r : Fin n => (ix1 r : (⟨1, ![n]⟩ : Shape).Idx)) ⟨?_, ?_⟩ f).symm
  · intro r r' e
    exact Fin.ext (congrArg (fun i : (⟨1, ![n]⟩ : Shape).Idx => (i 0).val) e)
  · intro i
    exact ⟨i 0, (eq_ix1 i).symm⟩

/-- The numerator: zero plus the sum over the rows of the row's term where the row is kept and of zero where it is not. -/
theorem kept_sum (lbl : CL) (t : C1) (j : S_.Idx) :
    Host.reduceAdd (F := Ideal)
        (select (kept lbl) t (broadcastInDim S2048 ![] bcast_S_S2048 (id (constant (F := Ideal) S_ .f32 0x00000000#32))))
        (constant (F := Ideal) S_ .f32 0x00000000#32) reducesTo_S2048_S_d0 h_S_ j
      = Cert.JSD.zero + ∑ r : Fin 2048, Scalar.select (Cert.JSD.keep lbl r) (t (ix1 r)) Cert.JSD.zero :=
  (hostReduceAdd_apply _ _ reducesTo_S2048_S_d0 h_S_ j).trans
    ((Ideal.hostReduceAdd_total reducesTo_S2048_S_d0 (fun b => b.elim0) _ _ j).trans
      (congrArg (Cert.JSD.zero + ·) ((sum_vector _).trans (Finset.sum_congr rfl fun r _ => by
        show Scalar.select (kept lbl (ix1 r)) (t (ix1 r))
          (broadcastInDim S2048 ![] bcast_S_S2048 (id (constant (F := Ideal) S_ .f32 0x00000000#32)) (ix1 r)) = _
        rw [broadcastInDim_scalar_apply, kept_apply]
        rfl))))

/-- A fold over the indices of a vector [n] is the fold over its coordinates. -/
theorem fold_vector {α : Type} {n : Nat} (op : α → α → α) [Std.Commutative op] [Std.Associative op] (b : α)
    (f : (⟨1, ![n]⟩ : Shape).Idx → α) :
    (Finset.univ : Finset (⟨1, ![n]⟩ : Shape).Idx).fold op b f = (Finset.univ : Finset (Fin n)).fold op b (fun r => f (ix1 r)) := by
  have hinj : Function.Injective (fun r : Fin n => (ix1 r : (⟨1, ![n]⟩ : Shape).Idx)) := fun r r' e =>
    Fin.ext (congrArg (fun i : (⟨1, ![n]⟩ : Shape).Idx => (i 0).val) e)
  have hsurj : Function.Surjective (fun r : Fin n => (ix1 r : (⟨1, ![n]⟩ : Shape).Idx)) := fun i => ⟨i 0, (eq_ix1 i).symm⟩
  rw [← Finset.image_univ_of_surjective hsurj, Finset.fold_image (fun r _ r' _ e => hinj e)]
  rfl

/-- The count of kept rows as a 32-bit word: the words 0 / 1 of the mask's bits added up from 0, in any order (every
    row reduces into the one result index). -/
theorem kept_count (lbl : CL) (j : S_.Idx) :
    Host.reduce IntOp.addi (extui 32 (kept lbl) natLt_1_32) (constantI S_ 32 0#32) reducesTo_S2048_S_d0 h_S_ j
      = Cert.JSD.keptWord lbl := by
  refine (Host.reduce_eq_fold IntOp.addi _ _ reducesTo_S2048_S_d0 h_S_ j).trans ?_
  have hall : ∀ i ∈ (Finset.univ : Finset S2048.Idx), Shape.ReducesTo.drop reducesTo_S2048_S_d0 i = j :=
    fun i _ => funext fun b => b.elim0
  rw [Finset.filter_true_of_mem hall]
  refine (fold_vector (n := 2048) IntOp.addi _ _).trans ?_
  show (Finset.univ : Finset (Fin 2048)).fold IntOp.addi 0#32 (fun r => (kept lbl (ix1 r)).setWidth 32)
    = (Finset.univ : Finset (Fin 2048)).fold IntOp.addi 0#32 (fun r => (Cert.JSD.keep lbl r).setWidth 32)
  exact Finset.fold_congr fun r _ => by rw [kept_apply]

/-- The last stage at its one index: the kept rows' terms summed from zero, divided by the count of kept rows (at
    least one) converted to a float. -/
theorem total_apply (lbl : CL) (t : C1) (j : S_.Idx) :
    total lbl t j = Ideal.div (Cert.JSD.zero + ∑ r : Fin 2048, Scalar.select (Cert.JSD.keep lbl r) (t (ix1 r)) Cert.JSD.zero)
      (FloatOps.sitofp (F := Ideal) .f32 (IntOp.maxsi (Cert.JSD.keptWord lbl) 1#32)) := by
  unfold total
  exact congrArg₂ Ideal.div (kept_sum lbl t j)
    (congrArg (fun w : BitVec 32 => FloatOps.sitofp (F := Ideal) .f32 (IntOp.maxsi w 1#32)) (kept_count lbl j))

end Cert.ReferenceIdeal.RefValue

end
-- ==== Proof.RefStages.lean ====
/-
  The reference's 77 host operations cut into six stages, and what each stage leaves in the buffers a later stage reads,
  from any buffer contents W: the stage's function of the arrays it reads, or the contents unchanged. Composed, the
  result buffer after all 77 operations is the stages' functions applied in turn to the five arguments.
-/
import proofs.«117538_j8796093022766_1_alg».proof.Proof.RefFuns
import proofs.«117538_j8796093022766_1_alg».proof.Proof.RefRunP
import Idealize.ShloMosaic.Lib.StableHlo.Run
import Idealize.ShloMosaic.Lib.Pipeline.Value
import Idealize.ShloMosaic.Lib.ValueIdx

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.ShloMosaic.StableHlo
open Idealize.SL.Sem

section Stages
variable {F : FTy → Type} [FloatOps F]

/-- Operations 0–4: the two matrix products and the first one's quotient by the all-ones array. -/
def sA : List (HloOp τ sig (Elt F)) :=
  [ binary main_arg0 main_arg1 main_v0 ((fun l r => Host.dotGeneral dot_S2048x2048_S32000x2048_S2048x32000_1_1_0_0_n_n none l r) : (⟨S2048x2048, .f32⟩ : BufTy).Contents (Elt F) → (⟨S32000x2048, .f32⟩ : BufTy).Contents (Elt F) → (⟨S2048x32000, .f32⟩ : BufTy).Contents (Elt F)),
    binary main_arg2 main_arg3 main_v1 ((fun l r => Host.dotGeneral dot_S2048x2048_S32000x2048_S2048x32000_1_1_0_0_n_n none l r) : (⟨S2048x2048, .f32⟩ : BufTy).Contents (Elt F) → (⟨S32000x2048, .f32⟩ : BufTy).Contents (Elt F) → (⟨S2048x32000, .f32⟩ : BufTy).Contents (Elt F)),
    nullary main_cst (constant S_ .f32 0x3F800000#32),
    unary main_cst main_v2 (broadcastInDim S2048x32000 ![] bcast_S_S2048x32000 : (⟨S_, .f32⟩ : BufTy).Contents (Elt F) → (⟨S2048x32000, .f32⟩ : BufTy).Contents (Elt F)),
    binary main_v0 main_v2 main_v3 (Host.divf : (⟨S2048x32000, .f32⟩ : BufTy).Contents (Elt F) → (⟨S2048x32000, .f32⟩ : BufTy).Contents (Elt F) → (⟨S2048x32000, .f32⟩ : BufTy).Contents (Elt F)) ]

/-- Operations 5–19: the first log-softmax. -/
def sB : List (HloOp τ sig (Elt F)) :=
  [ TRef.nullary (TRef.of (T := ⟨S_, .f32⟩) main_call0_cst) (constant S_ .f32 0xFF800000#32),
    TRef.binary (TRef.of (T := ⟨S2048x32000, .f32⟩) main_v3) (TRef.of (T := ⟨S_, .f32⟩) main_call0_cst) (TRef.of (T := ⟨S2048, .f32⟩) main_call0_v0) (fun x v => Host.reduce FloatOps.maximumf x v reducesTo_S2048x32000_S2048_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S2048, .f32⟩) main_call0_v1) (broadcastInDim S2048 ![] bcast_S_S2048),
    TRef.binary (TRef.of (T := ⟨S2048, .f32⟩) main_call0_v1) (TRef.of (T := ⟨S2048, .f32⟩) main_call0_v0) (TRef.of (T := ⟨S2048, .f32⟩) main_call0_v2) maximumf,
    TRef.unary (TRef.of (T := ⟨S2048, .f32⟩) main_call0_v2) (TRef.of (T := ⟨S2048x1, .f32⟩) main_call0_v3) (broadcastInDim S2048x1 ![0] bcast_S2048_S2048x1_0),
    TRef.unary (TRef.of (T := ⟨S2048x1, .f32⟩) main_call0_v3) (TRef.of (T := ⟨S2048x32000, .f32⟩) main_call0_v4) (broadcastInDim S2048x32000 ![0, 1] bcast_S2048x1_S2048x32000_0_1),
    TRef.binary (TRef.of (T := ⟨S2048x32000, .f32⟩) main_v3) (TRef.of (T := ⟨S2048x32000, .f32⟩) main_call0_v4) (TRef.of (T := ⟨S2048x32000, .f32⟩) main_call0_v5) subf,
    TRef.unary (TRef.of (T := ⟨S2048x32000, .f32⟩) main_call0_v5) (TRef.of (T := ⟨S2048x32000, .f32⟩) main_call0_v6) Host.exp,
    TRef.nullary (TRef.of (T := ⟨S_, .f32⟩) main_call0_cst_1) (constant S_ .f32 0x00000000#32),
    TRef.binary (TRef.of (T := ⟨S2048x32000, .f32⟩) main_call0_v6) (TRef.of (T := ⟨S_, .f32⟩) main_call0_cst_1) (TRef.of (T := ⟨S2048, .f32⟩) main_call0_v7) (fun x v => Host.reduceAdd x v reducesTo_S2048x32000_S2048_d1 h_S_),
    TRef.unary (TRef.of (T := ⟨S2048, .f32⟩) main_call0_v7) (TRef.of (T := ⟨S2048x1, .f32⟩) main_call0_v8) (broadcastInDim S2048x1 ![0] bcast_S2048_S2048x1_0),
    TRef.unary (TRef.of (T := ⟨S2048x1, .f32⟩) main_call0_v8) (TRef.of (T := ⟨S2048x1, .f32⟩) main_call0_v9) Host.log,
    TRef.unary (TRef.of (T := ⟨S2048x1, .f32⟩) main_call0_v9) (TRef.of (T := ⟨S2048x32000, .f32⟩) main_call0_v10) (broadcastInDim S2048x32000 ![0, 1] bcast_S2048x1_S2048x32000_0_1),
    TRef.binary (TRef.of (T := ⟨S2048x32000, .f32⟩) main_call0_v5) (TRef.of (T := ⟨S2048x32000, .f32⟩) main_call0_v10) (TRef.of (T := ⟨S2048x32000, .f32⟩) main_v4) subf ]

/-- Operations 20–22: the second product's quotient by the all-ones array. -/
def sC : List (HloOp τ sig (Elt F)) :=
  [ nullary main_cst_0 (constant S_ .f32 0x3F800000#32),
    unary main_cst_0 main_v5 (broadcastInDim S2048x32000 ![] bcast_S_S2048x32000 : (⟨S_, .f32⟩ : BufTy).Contents (Elt F) → (⟨S2048x32000, .f32⟩ : BufTy).Contents (Elt F)),
    binary main_v1 main_v5 main_v6 (Host.divf : (⟨S2048x32000, .f32⟩ : BufTy).Contents (Elt F) → (⟨S2048x32000, .f32⟩ : BufTy).Contents (Elt F) → (⟨S2048x32000, .f32⟩ : BufTy).Contents (Elt F)) ]

/-- Operations 23–37: the second log-softmax. -/
def sD : List (HloOp τ sig (Elt F)) :=
  [ TRef.nullary (TRef.of (T := ⟨S_, .f32⟩) main_call1_cst) (constant S_ .f32 0xFF800000#32),
    TRef.binary (TRef.of (T := ⟨S2048x32000, .f32⟩) main_v6) (TRef.of (T := ⟨S_, .f32⟩) main_call1_cst) (TRef.of (T := ⟨S2048, .f32⟩) main_call1_v0) (fun x v => Host.reduce FloatOps.maximumf x v reducesTo_S2048x32000_S2048_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S2048, .f32⟩) main_call1_v1) (broadcastInDim S2048 ![] bcast_S_S2048),
    TRef.binary (TRef.of (T := ⟨S2048, .f32⟩) main_call1_v1) (TRef.of (T := ⟨S2048, .f32⟩) main_call1_v0) (TRef.of (T := ⟨S2048, .f32⟩) main_call1_v2) maximumf,
    TRef.unary (TRef.of (T := ⟨S2048, .f32⟩) main_call1_v2) (TRef.of (T := ⟨S2048x1, .f32⟩) main_call1_v3) (broadcastInDim S2048x1 ![0] bcast_S2048_S2048x1_0),
    TRef.unary (TRef.of (T := ⟨S2048x1, .f32⟩) main_call1_v3) (TRef.of (T := ⟨S2048x32000, .f32⟩) main_call1_v4) (broadcastInDim S2048x32000 ![0, 1] bcast_S2048x1_S2048x32000_0_1),
    TRef.binary (TRef.of (T := ⟨S2048x32000, .f32⟩) main_v6) (TRef.of (T := ⟨S2048x32000, .f32⟩) main_call1_v4) (TRef.of (T := ⟨S2048x32000, .f32⟩) main_call1_v5) subf,
    TRef.unary (TRef.of (T := ⟨S2048x32000, .f32⟩) main_call1_v5) (TRef.of (T := ⟨S2048x32000, .f32⟩) main_call1_v6) Host.exp,
    TRef.nullary (TRef.of (T := ⟨S_, .f32⟩) main_call1_cst_1) (constant S_ .f32 0x00000000#32),
    TRef.binary (TRef.of (T := ⟨S2048x32000, .f32⟩) main_call1_v6) (TRef.of (T := ⟨S_, .f32⟩) main_call1_cst_1) (TRef.of (T := ⟨S2048, .f32⟩) main_call1_v7) (fun x v => Host.reduceAdd x v reducesTo_S2048x32000_S2048_d1 h_S_),
    TRef.unary (TRef.of (T := ⟨S2048, .f32⟩) main_call1_v7) (TRef.of (T := ⟨S2048x1, .f32⟩) main_call1_v8) (broadcastInDim S2048x1 ![0] bcast_S2048_S2048x1_0),
    TRef.unary (TRef.of (T := ⟨S2048x1, .f32⟩) main_call1_v8) (TRef.of (T := ⟨S2048x1, .f32⟩) main_call1_v9) Host.log,
    TRef.unary (TRef.of (T := ⟨S2048x1, .f32⟩) main_call1_v9) (TRef.of (T := ⟨S2048x32000, .f32⟩) main_call1_v10) (broadcastInDim S2048x32000 ![0, 1] bcast_S2048x1_S2048x32000_0_1),
    TRef.binary (TRef.of (T := ⟨S2048x32000, .f32⟩) main_call1_v5) (TRef.of (T := ⟨S2048x32000, .f32⟩) main_call1_v10) (TRef.of (T := ⟨S2048x32000, .f32⟩) main_v7) subf ]

/-- Operations 38–60: the summand of the divergence and its sum along each row. -/
def sE : List (HloOp τ sig (Elt F)) :=
  [ unary main_v4 main_v8 (Host.exp : (⟨S2048x32000, .f32⟩ : BufTy).Contents (Elt F) → (⟨S2048x32000, .f32⟩ : BufTy).Contents (Elt F)),
    unary main_v7 main_v9 (Host.exp : (⟨S2048x32000, .f32⟩ : BufTy).Contents (Elt F) → (⟨S2048x32000, .f32⟩ : BufTy).Contents (Elt F)),
    nullary main_cst_1 (constant S_ .f32 0x3F000000#32),
    unary main_cst_1 main_v10 (broadcastInDim S2048x32000 ![] bcast_S_S2048x32000 : (⟨S_, .f32⟩ : BufTy).Contents (Elt F) → (⟨S2048x32000, .f32⟩ : BufTy).Contents (Elt F)),
    binary main_v10 main_v9 main_v11 (mulf : (⟨S2048x32000, .f32⟩ : BufTy).Contents (Elt F) → (⟨S2048x32000, .f32⟩ : BufTy).Contents (Elt F) → (⟨S2048x32000, .f32⟩ : BufTy).Contents (Elt F)),
    nullary main_cst_2 (constant S_ .f32 0x3F000000#32),
    unary main_cst_2 main_v12 (broadcastInDim S2048x32000 ![] bcast_S_S2048x32000 : (⟨S_, .f32⟩ : BufTy).Contents (Elt F) → (⟨S2048x32000, .f32⟩ : BufTy).Contents (Elt F)),
    binary main_v12 main_v8 main_v13 (mulf : (⟨S2048x32000, .f32⟩ : BufTy).Contents (Elt F) → (⟨S2048x32000, .f32⟩ : BufTy).Contents (Elt F) → (⟨S2048x32000, .f32⟩ : BufTy).Contents (Elt F)),
    binary main_v11 main_v13 main_v14 (addf : (⟨S2048x32000, .f32⟩ : BufTy).Contents (Elt F) → (⟨S2048x32000, .f32⟩ : BufTy).Contents (Elt F) → (⟨S2048x32000, .f32⟩ : BufTy).Contents (Elt F)),
    unary main_v14 main_v15 (Host.log : (⟨S2048x32000, .f32⟩ : BufTy).Contents (Elt F) → (⟨S2048x32000, .f32⟩ : BufTy).Contents (Elt F)),
    nullary main_cst_3 (constant S_ .f32 0x3F000000#32),
    unary main_cst_3 main_v16 (broadcastInDim S2048x32000 ![] bcast_S_S2048x32000 : (⟨S_, .f32⟩ : BufTy).Contents (Elt F) → (⟨S2048x32000, .f32⟩ : BufTy).Contents (Elt F)),
    binary main_v16 main_v9 main_v17 (mulf : (⟨S2048x32000, .f32⟩ : BufTy).Contents (Elt F) → (⟨S2048x32000, .f32⟩ : BufTy).Contents (Elt F) → (⟨S2048x32000, .f32⟩ : BufTy).Contents (Elt F)),
    binary main_v7 main_v15 main_v18 (subf : (⟨S2048x32000, .f32⟩ : BufTy).Contents (Elt F) → (⟨S2048x32000, .f32⟩ : BufTy).Contents (Elt F) → (⟨S2048x32000, .f32⟩ : BufTy).Contents (Elt F)),
    binary main_v17 main_v18 main_v19 (mulf : (⟨S2048x32000, .f32⟩ : BufTy).Contents (Elt F) → (⟨S2048x32000, .f32⟩ : BufTy).Contents (Elt F) → (⟨S2048x32000, .f32⟩ : BufTy).Contents (Elt F)),
    nullary main_cst_4 (constant S_ .f32 0x3F000000#32),
    unary main_cst_4 main_v20 (broadcastInDim S2048x32000 ![] bcast_S_S2048x32000 : (⟨S_, .f32⟩ : BufTy).Contents (Elt F) → (⟨S2048x32000, .f32⟩ : BufTy).Contents (Elt F)),
    binary main_v20 main_v8 main_v21 (mulf : (⟨S2048x32000, .f32⟩ : BufTy).Contents (Elt F) → (⟨S2048x32000, .f32⟩ : BufTy).Contents (Elt F) → (⟨S2048x32000, .f32⟩ : BufTy).Contents (Elt F)),
    binary main_v4 main_v15 main_v22 (subf : (⟨S2048x32000, .f32⟩ : BufTy).Contents (Elt F) → (⟨S2048x32000, .f32⟩ : BufTy).Contents (Elt F) → (⟨S2048x32000, .f32⟩ : BufTy).Contents (Elt F)),
    binary main_v21 main_v22 main_v23 (mulf : (⟨S2048x32000, .f32⟩ : BufTy).Contents (Elt F) → (⟨S2048x32000, .f32⟩ : BufTy).Contents (Elt F) → (⟨S2048x32000, .f32⟩ : BufTy).Contents (Elt F)),
    binary main_v19 main_v23 main_v24 (addf : (⟨S2048x32000, .f32⟩ : BufTy).Contents (Elt F) → (⟨S2048x32000, .f32⟩ : BufTy).Contents (Elt F) → (⟨S2048x32000, .f32⟩ : BufTy).Contents (Elt F)),
    nullary main_cst_5 (constant S_ .f32 0x00000000#32),
    binary main_v24 main_cst_5 main_v25 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)) ]

/-- Operations 61–76: the mask of kept rows, their integer count, the selection, the total and the quotient. -/
def sF : List (HloOp τ sig (Elt F)) :=
  [ nullary main_c (constantI S_ 32 4294967196#32),
    unary main_c main_v26 (broadcastInDim S2048 ![] bcast_S_S2048 : (⟨S_, .i32⟩ : BufTy).Contents (Elt F) → (⟨S2048, .i32⟩ : BufTy).Contents (Elt F)),
    binary main_arg4 main_v26 main_v27 (cmpi .ne : (⟨S2048, .i32⟩ : BufTy).Contents (Elt F) → (⟨S2048, .i32⟩ : BufTy).Contents (Elt F) → (⟨S2048, .i1⟩ : BufTy).Contents (Elt F)),
    unary main_v27 main_v28 ((extui 32 · natLt_1_32) : (⟨S2048, .i1⟩ : BufTy).Contents (Elt F) → (⟨S2048, .i32⟩ : BufTy).Contents (Elt F)),
    nullary main_c_6 (constantI S_ 32 0#32),
    binary main_v28 main_c_6 main_v29 ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)),
    nullary main_c_7 (constantI S_ 32 1#32),
    binary main_v29 main_c_7 main_v30 (maxsi : (⟨S_, .i32⟩ : BufTy).Contents (Elt F) → (⟨S_, .i32⟩ : BufTy).Contents (Elt F) → (⟨S_, .i32⟩ : BufTy).Contents (Elt F)),
    unary main_v30 main_v31 (sitofp .f32 : (⟨S_, .i32⟩ : BufTy).Contents (Elt F) → (⟨S_, .f32⟩ : BufTy).Contents (Elt F)),
    nullary main_cst_8 (constant S_ .f32 0x00000000#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S2048, .f32⟩) main_call2_v1) (broadcastInDim S2048 ![] bcast_S_S2048),
    TRef.ternary (TRef.of (T := ⟨S2048, .i1⟩) main_v27) (TRef.of (T := ⟨S2048, .f32⟩) main_v25) (TRef.of (T := ⟨S2048, .f32⟩) main_call2_v1) (TRef.of (T := ⟨S2048, .f32⟩) main_v32) select,
    nullary main_cst_9 (constant S_ .f32 0x00000000#32),
    binary main_v32 main_cst_9 main_v33 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    binary main_v33 main_v31 main_v34 (Host.divf : (⟨S_, .f32⟩ : BufTy).Contents (Elt F) → (⟨S_, .f32⟩ : BufTy).Contents (Elt F) → (⟨S_, .f32⟩ : BufTy).Contents (Elt F)) ]

set_option maxHeartbeats 4000000 in
/-- The reference's operations are the six stages in a row. -/
theorem ops_eq : (Cert.ReferenceIdeal.Value.ops (F := F)) = sA ++ (sB ++ (sC ++ (sD ++ (sE ++ sF)))) := rfl

end Stages

/-! ## The stages' results -/

/-- A value moved to a buffer's own type and back along the two directions of one type equality is the value. -/
theorem cast_cancel {α β : Type} (h : α = β) (h' : β = α) (v : α) : cast h' (cast h v) = v := by subst h; rfl

section StageResults
variable (W : Valuation τ sig (Elt Ideal))

theorem stageA_v3 : after (sA (F := Ideal)) W (Proc.devRef .tc main_v3)
    = overOne (prod (W (Proc.devRef .tc main_arg0)) (W (Proc.devRef .tc main_arg1))) := by
  unfold sA; after_results_simp; rfl
theorem stageA_v1 : after (sA (F := Ideal)) W (Proc.devRef .tc main_v1)
    = prod (W (Proc.devRef .tc main_arg2)) (W (Proc.devRef .tc main_arg3)) := by
  unfold sA; after_results_simp; rfl
theorem stageA_arg4 : after (sA (F := Ideal)) W (Proc.devRef .tc main_arg4) = W (Proc.devRef .tc main_arg4) := by
  unfold sA; after_results_simp

theorem stageB_v4 : after (sB (F := Ideal)) W (Proc.devRef .tc main_v4) = lsm (W (Proc.devRef .tc main_v3)) := by
  unfold sB; after_results_simp
  simp only [cast_cancel]
  rfl
theorem stageB_v1 : after (sB (F := Ideal)) W (Proc.devRef .tc main_v1) = W (Proc.devRef .tc main_v1) := by
  unfold sB; after_results_simp
theorem stageB_arg4 : after (sB (F := Ideal)) W (Proc.devRef .tc main_arg4) = W (Proc.devRef .tc main_arg4) := by
  unfold sB; after_results_simp

theorem stageC_v6 : after (sC (F := Ideal)) W (Proc.devRef .tc main_v6) = overOne (W (Proc.devRef .tc main_v1)) := by
  unfold sC; after_results_simp; rfl
theorem stageC_v4 : after (sC (F := Ideal)) W (Proc.devRef .tc main_v4) = W (Proc.devRef .tc main_v4) := by
  unfold sC; after_results_simp
theorem stageC_arg4 : after (sC (F := Ideal)) W (Proc.devRef .tc main_arg4) = W (Proc.devRef .tc main_arg4) := by
  unfold sC; after_results_simp

theorem stageD_v7 : after (sD (F := Ideal)) W (Proc.devRef .tc main_v7) = lsm (W (Proc.devRef .tc main_v6)) := by
  unfold sD; after_results_simp
  simp only [cast_cancel]
  rfl
theorem stageD_v4 : after (sD (F := Ideal)) W (Proc.devRef .tc main_v4) = W (Proc.devRef .tc main_v4) := by
  unfold sD; after_results_simp
theorem stageD_arg4 : after (sD (F := Ideal)) W (Proc.devRef .tc main_arg4) = W (Proc.devRef .tc main_arg4) := by
  unfold sD; after_results_simp

theorem stageE_v25 : after (sE (F := Ideal)) W (Proc.devRef .tc main_v25)
    = rowTerms (W (Proc.devRef .tc main_v4)) (W (Proc.devRef .tc main_v7)) := by
  unfold sE; after_results_simp; rfl
theorem stageE_arg4 : after (sE (F := Ideal)) W (Proc.devRef .tc main_arg4) = W (Proc.devRef .tc main_arg4) := by
  unfold sE; after_results_simp

theorem stageF_v34 : after (sF (F := Ideal)) W (Proc.devRef .tc main_v34)
    = total (W (Proc.devRef .tc main_arg4)) (W (Proc.devRef .tc main_v25)) := by
  unfold sF; after_results_simp; rfl

end StageResults

/-- The result buffer after all the operations, as the stages' functions composed. -/
theorem ref_composed (V : Valuation τ sig (Elt Ideal)) :
    after (Cert.ReferenceIdeal.Value.ops (F := Ideal)) V (Proc.devRef .tc main_v34)
      = total (V (Proc.devRef .tc main_arg4))
          (rowTerms (lsm (overOne (prod (V (Proc.devRef .tc main_arg0)) (V (Proc.devRef .tc main_arg1)))))
            (lsm (overOne (prod (V (Proc.devRef .tc main_arg2)) (V (Proc.devRef .tc main_arg3)))))) := by
  rw [ops_eq, after_append, after_append, after_append, after_append, after_append]
  rw [stageF_v34, stageE_v25, stageE_arg4, stageD_v7, stageD_v4, stageD_arg4, stageC_v6, stageC_v4, stageC_arg4,
    stageB_v4, stageB_v1, stageB_arg4, stageA_v3, stageA_v1, stageA_arg4]

end Cert.ReferenceIdeal.RefValue

end
-- ==== Proof.RefValue.lean ====
/-
  The reference program's result: its 77 host operations, folded over any buffer contents V, leave in the result buffer
  the loss (selected rows, integer count) of the logits of V's four float arguments and V's labels.

  The fold is read in six stages (RefStages.lean), each a function of the arrays it reads (RefFuns.lean); the functions
  are read at an index as the specification's formulas (RefRows.lean for the logits, the log-softmax and the rows' terms,
  RefLastB.lean for the total over the count).
-/
import proofs.«117538_j8796093022766_1_alg».proof.Proof.RefFuns
import proofs.«117538_j8796093022766_1_alg».proof.Proof.RefRows
import proofs.«117538_j8796093022766_1_alg».proof.Proof.RefLastB
import proofs.«117538_j8796093022766_1_alg».proof.Proof.RefStages
import proofs.«117538_j8796093022766_1_alg».proof.Proof.Spec

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.ShloMosaic.StableHlo
open Idealize.SL.Sem

/-- The stages' functions composed, at the result's one index, are the specification's loss of the logits. -/
theorem composed_eq (x0 : CX) (w0 : CW) (x1 : CX) (w1 : CW) (lbl : CL) (i : S_.Idx) :
    total lbl (rowTerms (lsm (overOne (prod x0 w0))) (lsm (overOne (prod x1 w1)))) i
      = Cert.JSD.lossSelected (Cert.JSD.logits x0 w0) (Cert.JSD.logits x1 w1) lbl := by
  rw [overOne_eq, overOne_eq, prod_eq, prod_eq]
  refine (total_apply lbl _ i).trans ?_
  unfold Cert.JSD.lossSelected
  refine congrArg₂ Ideal.div (congrArg (Cert.JSD.zero + ·) (Finset.sum_congr rfl fun r _ => ?_)) rfl
  refine congrArg (fun z => Scalar.select (Cert.JSD.keep lbl r) z Cert.JSD.zero) ?_
  refine (rowTerms_apply _ _ r).trans (congrArg (Cert.JSD.zero + ·) ?_)
  exact congrArg₂ Cert.JSD.rowLoss (funext fun j => lsm_apply _ r j) (funext fun j => lsm_apply _ r j)

/-- The result buffer after the reference's operations, from any contents V. -/
theorem ref_result (V : Valuation τ sig (Elt Ideal)) :
    after (Cert.ReferenceIdeal.Value.ops (F := Ideal)) V (Proc.devRef .tc main_v34)
      = fun _ => Cert.JSD.lossSelected
          (Cert.JSD.logits (V (Proc.devRef .tc main_arg0)) (V (Proc.devRef .tc main_arg1)))
          (Cert.JSD.logits (V (Proc.devRef .tc main_arg2)) (V (Proc.devRef .tc main_arg3)))
          (V (Proc.devRef .tc main_arg4)) := by
  rw [ref_composed]
  funext i
  exact composed_eq _ _ _ _ _ i

end Cert.ReferenceIdeal.RefValue

end
-- ==== Proof.LibMaskCount.lean ====
/-
  Counting the ones of a 0/1 mask two ways, at the ideal values.

  A mask of n bits can be counted in floating point — each bit converted (unsigned) to a float and the floats summed — or
  in 32-bit integers — each bit zero-extended to a word, the words added from 0 — and the integer count, or the larger of
  it and 1, converted (signed) to a float. While n is below 2^31 no word wraps and the two agree:

  * `coe_sum`: a finite sum of real numbers computed on the extended reals is the real sum;
  * `bit_cases`: a one-bit word is 0 or 1;
  * `kept k`: the number of ones, `kept_le`: at most n;
  * `fold_addi_eq`: the fold of `IntOp.addi` from 0 over the zero-extended bits is the count's word;
  * `sum_mask_eq`: the float sum of the converted bits is the count;
  * `toInt_maxsi_count`: the signed maximum of the count's word and 1 reads as the larger of the count and 1;
  * `count_eq`: max (∑ uitofp bit) 1 = sitofp (maxsi (fold of addi) 1), for n < 2^31;
  * `mul_bit_eq_select`: multiplying a value by a converted bit is selecting the value or zero.
-/
import Idealize.ShloMosaic.PureOps.Ideal
import Idealize.ShloMosaic.PureOps.Reduce

noncomputable section

open scoped BigOperators

namespace Idealize.ShloMosaic.MaskCount

open Idealize.ShloMosaic

/-- A finite sum of real numbers, computed on the extended reals, is the real sum. -/
theorem coe_sum {ι : Type} (s : Finset ι) (a : ι → ℝ) : ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- A one-bit word is 0 or 1. -/
theorem bit_cases (b : BitVec 1) : b = 0#1 ∨ b = 1#1 := by
  revert b; decide

/-- Multiplying by the bit read as a float is selecting the value or zero. -/
theorem mul_bit_eq_select (X : EReal) (b : BitVec 1) :
    X * FloatOps.uitofp (F := Ideal) .f32 b = Scalar.select b X 0 := by
  rcases bit_cases b with h | h
  · subst h
    show X * (((0#1 : BitVec 1).toNat : ℝ) : EReal) = if (0#1 : BitVec 1) = 1 then X else 0
    rw [if_neg (by decide)]
    simp
  · subst h
    show X * (((1#1 : BitVec 1).toNat : ℝ) : EReal) = if (1#1 : BitVec 1) = 1 then X else 0
    rw [if_pos (by decide)]
    simp

section Count
variable {n : Nat} (k : Fin n → BitVec 1)

/-- The number of ones of the mask. -/
def kept : ℕ := ∑ r : Fin n, (k r).toNat

theorem kept_le : kept k ≤ n := by
  unfold kept
  calc ∑ r : Fin n, (k r).toNat ≤ ∑ _r : Fin n, 1 := Finset.sum_le_sum fun r _ => by have := (k r).isLt; omega
    _ = n := by simp

/-- Adding the bits up as 32-bit words gives the count's word. -/
theorem fold_addi_eq (s : Finset (Fin n)) :
    s.fold IntOp.addi 0#32 (fun r => (k r).setWidth 32) = BitVec.ofNat 32 (∑ r ∈ s, (k r).toNat) := by
  classical
  induction s using Finset.induction_on with
  | empty => simp
  | insert a s ha ih =>
    rw [Finset.fold_insert ha, ih, Finset.sum_insert ha]
    unfold IntOp.addi
    apply BitVec.eq_of_toNat_eq
    have h1 := (k a).isLt
    simp only [BitVec.toNat_add, BitVec.toNat_setWidth, BitVec.toNat_ofNat]
    omega

/-- The float sum of the converted bits is the count. -/
theorem sum_mask_eq : (∑ r : Fin n, FloatOps.uitofp (F := Ideal) .f32 (k r)) = (((kept k : ℕ) : ℝ) : EReal) := by
  show (∑ r : Fin n, ((((k r).toNat : ℕ) : ℝ) : EReal)) = _
  rw [coe_sum]
  unfold kept
  push_cast
  rfl

/-- The larger of the count's word and 1, read as a signed integer, is the larger of the count and 1. -/
theorem toInt_maxsi_count (N : ℕ) (hN : N < 2 ^ 31) :
    (IntOp.maxsi (BitVec.ofNat 32 N) 1#32).toInt = ((max N 1 : ℕ) : ℤ) := by
  have hN' : N < 2147483648 := by simpa using hN
  have hto : (BitVec.ofNat 32 N).toInt = (N : ℤ) := by
    rw [BitVec.toInt_eq_toNat_cond, BitVec.toNat_ofNat]
    have : N % 2 ^ 32 = N := Nat.mod_eq_of_lt (by omega)
    rw [this, if_pos (by omega)]
  unfold IntOp.maxsi
  by_cases h1 : 1 < N
  · have hs : (1#32 : BitVec 32).slt (BitVec.ofNat 32 N) = true := by
      rw [BitVec.slt, hto]; simp; omega
    rw [if_pos hs, hto]
    have : max N 1 = N := max_eq_left (by omega)
    rw [this]
  · have hs : (1#32 : BitVec 32).slt (BitVec.ofNat 32 N) = false := by
      rw [BitVec.slt, hto]; simp; omega
    rw [hs]
    have : max N 1 = 1 := max_eq_right (by omega)
    rw [this]
    simp

/-- The float count and the integer count, each with 1 as a floor, agree while the mask has fewer than 2^31 bits. -/
theorem count_eq (hn : n < 2 ^ 31) :
    max (∑ r : Fin n, FloatOps.uitofp (F := Ideal) .f32 (k r)) 1
      = FloatOps.sitofp (F := Ideal) .f32
          (IntOp.maxsi ((Finset.univ : Finset (Fin n)).fold IntOp.addi 0#32 (fun r => (k r).setWidth 32)) 1#32) := by
  rw [fold_addi_eq, sum_mask_eq]
  show _ = (((IntOp.maxsi (BitVec.ofNat 32 (∑ r ∈ Finset.univ, (k r).toNat)) 1#32).toInt : ℝ) : EReal)
  have hk : (∑ r ∈ Finset.univ, (k r).toNat) = kept k := rfl
  rw [hk, toInt_maxsi_count _ (lt_of_le_of_lt (kept_le k) hn)]
  have h1 : (1 : EReal) = ((1 : ℝ) : EReal) := EReal.coe_one.symm
  rw [h1, ← EReal.coe_strictMono.monotone.map_max]
  push_cast
  rfl

end Count

end Idealize.ShloMosaic.MaskCount

end
-- ==== Proof.Bridge.lean ====
/-
  The two spellings of the loss agree on real logits.

  * Subtracting M + log Z from a row entry is subtracting M and then log Z, as soon as M is a real number: on the
    extended reals −(M + L) = −M − L needs M finite, and addition is associative without any condition.
  * A row of real numbers, not empty, has a real maximum (the fold of max from minus infinity).
  * A sum of products of real numbers is a real number: the logits of real inputs are real.
  * Multiplying a row's term by the 0/1 mask is selecting the term or zero.
  * Adding up the mask's bits as 32-bit words and converting the larger of that and 1 to a float is the larger of the
    float sum of the mask and 1: the count is at most 2048, far below 2^31, so no word wraps.
-/
import proofs.«117538_j8796093022766_1_alg».proof.Proof.Spec
import proofs.«117538_j8796093022766_1_alg».proof.Proof.LibMaskCount
import Idealize.ShloMosaic.PureOps.Ideal.Laws

noncomputable section

open scoped BigOperators

namespace Cert.JSD

open Idealize.ShloMosaic Idealize.ShloMosaic.ValueIdx

/-! ## The literals -/

theorem negInf_eq : negInf = ⊥ := by simp [Ideal.ofBits, Ideal.ieee]
theorem zero_eq : zero = 0 := by simp [Ideal.ofBits, Ideal.ieee]
theorem one_eq : one = 1 := by simp [Ideal.ofBits, Ideal.ieee, -EReal.coe_mul]; norm_num

/-! ## Real numbers among the extended reals -/

/-- The extended real is a real number. -/
def IsReal (x : EReal) : Prop := ∃ r : ℝ, x = r

/-- A sum of products of real numbers is a real number. -/
theorem isReal_sum_mul {n : Nat} (f g : Fin n → EReal) (hf : ∀ k, IsReal (f k)) (hg : ∀ k, IsReal (g k)) :
    IsReal (∑ k : Fin n, f k * g k) := by
  refine Finset.sum_induction _ IsReal ?_ ⟨0, EReal.coe_zero.symm⟩ ?_
  · rintro a b ⟨x, rfl⟩ ⟨y, rfl⟩; exact ⟨x + y, (EReal.coe_add x y).symm⟩
  · intro k _
    obtain ⟨x, hx⟩ := hf k
    obtain ⟨y, hy⟩ := hg k
    exact ⟨x * y, by rw [hx, hy, EReal.coe_mul]⟩

/-- The logits of real inputs are real. -/
theorem logits_real (x : SX.Idx → EReal) (w : SW.Idx → EReal) (hx : ∀ i, IsReal (x i)) (hw : ∀ i, IsReal (w i))
    (i : SL.Idx) : IsReal (logits x w i) :=
  isReal_sum_mul _ _ (fun _ => hx _) (fun _ => hw _)

/-- A nonempty row of real numbers has a real maximum. -/
theorem rowMax_real {n : Nat} (hn : 0 < n) (s : Fin n → EReal) (hs : ∀ j, IsReal (s j)) : IsReal (rowMax s) := by
  have hlt : rowMax s < ⊤ := by
    unfold rowMax
    rw [negInf_eq, Finset.fold_max_lt]
    exact ⟨bot_lt_top, fun j _ => by obtain ⟨r, hr⟩ := hs j; rw [hr]; exact EReal.coe_lt_top r⟩
  have hgt : ⊥ < rowMax s := by
    unfold rowMax
    rw [negInf_eq, Finset.lt_fold_max]
    exact Or.inr ⟨⟨0, hn⟩, Finset.mem_univ _, by obtain ⟨r, hr⟩ := hs ⟨0, hn⟩; rw [hr]; exact EReal.bot_lt_coe r⟩
  exact ⟨(rowMax s).toReal, (EReal.coe_toReal hlt.ne hgt.ne').symm⟩

/-! ## The two spellings of the log-probability -/

/-- a − (M + L) = (a − M) − L when M is a real number. -/
theorem sub_add_eq_sub_sub_of_real (a L : EReal) (M : ℝ) : a - ((M : EReal) + L) = a - (M : EReal) - L := by
  rw [sub_eq_add_neg, EReal.neg_add (Or.inl (EReal.coe_ne_bot M)) (Or.inl (EReal.coe_ne_top M)), sub_eq_add_neg,
    sub_eq_add_neg, sub_eq_add_neg, add_assoc]

theorem lpSum_eq_lpTwo {n : Nat} (s : Fin n → EReal) (hM : IsReal (rowMax s)) : lpSum s = lpTwo s := by
  obtain ⟨M, hM⟩ := hM
  funext j
  unfold lpSum lpTwo
  rw [hM]
  exact sub_add_eq_sub_sub_of_real _ _ M

/-! ## The mask and the count -/

/-- Multiplying a row's term by the bit read as a float is selecting the term (with the zero literal added in front) or
    the zero literal. -/
theorem mul_mask_eq_select (X : EReal) (b : BitVec 1) :
    X * FloatOps.uitofp (F := Ideal) .f32 b = Scalar.select b (zero + X) zero := by
  rw [zero_eq, zero_add]
  exact MaskCount.mul_bit_eq_select X b

/-- The two denominators: the float count of the mask and the integer count, each with 1 as a floor. -/
theorem count_eq {n : Nat} (k : Fin n → BitVec 1) (hn : n < 2 ^ 31) :
    max (zero + ∑ r : Fin n, FloatOps.uitofp (F := Ideal) .f32 (k r)) one
      = FloatOps.sitofp (F := Ideal) .f32
          (IntOp.maxsi ((Finset.univ : Finset (Fin n)).fold IntOp.addi 0#32 (fun r => (k r).setWidth 32)) 1#32) := by
  rw [zero_eq, zero_add, one_eq]
  exact MaskCount.count_eq k hn

/-! ## The two losses -/

theorem lossMasked_eq_lossSelected (s t : SL.Idx → EReal) (lbl : SLab.Idx → BitVec 32)
    (hs : ∀ i, IsReal (s i)) (ht : ∀ i, IsReal (t i)) : lossMasked s t lbl = lossSelected s t lbl := by
  unfold lossMasked lossSelected
  refine congrArg₂ Ideal.div ?_ ?_
  · refine congrArg (zero + ·) (Finset.sum_congr rfl fun r _ => ?_)
    rw [lpSum_eq_lpTwo (row s r) (rowMax_real (by norm_num) _ fun j => hs _),
      lpSum_eq_lpTwo (row t r) (rowMax_real (by norm_num) _ fun j => ht _)]
    exact mul_mask_eq_select _ _
  · exact count_eq (fun r => keep lbl r) (by norm_num)

end Cert.JSD

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.Finite.lean ====
/-
  From the precondition "every float input is finite" to: every entry of the four float arguments is a real number.
-/
import proofs.«117538_j8796093022766_1_alg».proof.Pre_finite_inputs
import proofs.«117538_j8796093022766_1_alg».proof.Proof.LibFiniteEntries
import proofs.«117538_j8796093022766_1_alg».proof.Proof.Bridge
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx
open Cert.Pre_finite_inputs

/-- A conjunction of two one-bit scalars is one only when both are. -/
theorem both_of_conj (x y : IVec S_ 1) (h : andi x y ix0 = 1#1) : x ix0 = 1#1 ∧ y ix0 = 1#1 :=
  IntOp.andi_eq_one.1 h

/-- Where the printed finiteness test of the five arguments is all ones, every entry of the four float arrays is real. -/
theorem real_args [hP : Cert.Pre_finite_inputs.Facts]
    (a0 : FVec Ideal S2048x2048 .f32) (a1 : FVec Ideal S32000x2048 .f32)
    (a2 : FVec Ideal S2048x2048 .f32) (a3 : FVec Ideal S32000x2048 .f32) (a4 : IVec S2048 32)
    (h : Cert.Pre_finite_inputs.fn (F := Ideal) a0 a1 a2 a3 a4 = fun _ => 1#1) :
    (∀ i, Cert.JSD.IsReal (a0 i)) ∧ (∀ i, Cert.JSD.IsReal (a1 i)) ∧ (∀ i, Cert.JSD.IsReal (a2 i)) ∧ (∀ i, Cert.JSD.IsReal (a3 i)) := by
  -- the test is the conjunction of four bits, one per float argument; it is one, so each of them is
  have h0 : Cert.Pre_finite_inputs.fn (F := Ideal) a0 a1 a2 a3 a4 ix0 = 1#1 := congrFun h ix0
  unfold Cert.Pre_finite_inputs.fn Cert.Pre_finite_inputs.fn_part1 at h0
  dsimp only at h0
  obtain ⟨h012, e3⟩ := both_of_conj _ _ h0
  obtain ⟨h01, e2⟩ := both_of_conj _ _ h012
  obtain ⟨e0, e1⟩ := both_of_conj _ _ h01
  -- each bit says: every entry of its argument has absolute value below plus infinity, so is a real number
  exact ⟨fun i => Cert.LibFiniteEntries.real_entries_of_all_lt_inf a0 _ _ _ _ e0 i,
    fun i => Cert.LibFiniteEntries.real_entries_of_all_lt_inf a1 _ _ _ _ e1 i,
    fun i => Cert.LibFiniteEntries.real_entries_of_all_lt_inf a2 _ _ _ _ e2 i,
    fun i => Cert.LibFiniteEntries.real_entries_of_all_lt_inf a3 _ _ _ _ e3 i⟩

end Cert.Finite

end
-- ==== Proof.lean ====
/-
  The certificate of a fused linear + log-softmax + generalized Jensen–Shannon loss.

  The kernel computes student and teacher logits x · Wᵀ by two blocked matrix products, then, sixteen rows at a time,
  each row's log-probabilities s − (M + log ∑ exp (s − M)) (M the row's maximum), the Jensen–Shannon term of the two
  rows, and multiplies it by a 0/1 mask of the labels; the host sums the column and divides by the larger of the mask's
  sum and 1. The reference computes the same logits by two whole matrix products (divided by a temperature of 1),
  log_softmax as (s − M) − log ∑ exp (s − M), the same term, selects it where the label is kept, and divides by the
  integer count of kept rows (at least 1) converted to a float.

  On the extended reals the two agree once the logits are real numbers — which they are when the inputs are finite:
  * the kernel's result is the masked loss of the logits (KernelRun.lean: its run with the result named;
    Logits.lean, RowTerm.lean, Rows.lean: what each call leaves in its output array; KernelValue.lean: the host's
    operations around the calls);
  * the reference's result is the selected loss of the same logits (RefValue.lean);
  * the two losses are equal on real logits (Bridge.lean), and finite inputs are real (Finite.lean).
  The three frames are the generated ones; the kernel's idealization rewrote nothing, so there is nothing to preserve.
-/
import proofs.«117538_j8796093022766_1_alg».proof.Defs
import proofs.«117538_j8796093022766_1_alg».proof.Proof.Gen.Kernel
import proofs.«117538_j8796093022766_1_alg».proof.Proof.Gen.Kernel.Skeleton
import proofs.«117538_j8796093022766_1_alg».proof.Proof.Gen.Kernel.Launch
import proofs.«117538_j8796093022766_1_alg».proof.Proof.Gen.Kernel.Points
import proofs.«117538_j8796093022766_1_alg».proof.Proof.Gen.Kernel.Frame
import proofs.«117538_j8796093022766_1_alg».proof.Proof.Gen.KernelIdeal
import proofs.«117538_j8796093022766_1_alg».proof.Proof.Gen.KernelIdeal.Skeleton
import proofs.«117538_j8796093022766_1_alg».proof.Proof.Gen.KernelIdeal.Launch
import proofs.«117538_j8796093022766_1_alg».proof.Proof.Gen.KernelIdeal.Points
import proofs.«117538_j8796093022766_1_alg».proof.Proof.Gen.KernelIdeal.Frame
import proofs.«117538_j8796093022766_1_alg».proof.Proof.Gen.ReferenceIdeal
import proofs.«117538_j8796093022766_1_alg».proof.Proof.RefRunP
import proofs.«117538_j8796093022766_1_alg».proof.Proof.Gen.Pre_finite_inputs
import proofs.«117538_j8796093022766_1_alg».proof.Proof.KernelRun
import proofs.«117538_j8796093022766_1_alg».proof.Proof.KernelValue
import proofs.«117538_j8796093022766_1_alg».proof.Proof.RefValue
import proofs.«117538_j8796093022766_1_alg».proof.Proof.Bridge
import proofs.«117538_j8796093022766_1_alg».proof.Proof.Finite
import Idealize.ShloMosaic.Adequacy
import Idealize.ShloMosaic.Init

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same loss: the kernel's masked loss of the
    logits is the reference's selected loss of the same logits, the inputs being finite and the logits therefore real. -/
theorem algebraic : Cert.algebraic_KernelIdeal_ReferenceIdeal := by
  intro m ρ m' ρ' hpre hagree
  refine ⟨_, Cert.KernelIdeal.ResultRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.Finite.real_args _ _ _ _ _ (hpre c)
  obtain ⟨e0, e1, e2, e3, e4⟩ := hagree c
  rw [Cert.ReferenceIdeal.RefValue.ref_result, Cert.KernelIdeal.ResultValue.result_value]
  funext _
  show Cert.JSD.lossSelected
      (Cert.JSD.logits (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)))
      (Cert.JSD.logits (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)))
      (m' ((c.tc : Thread Cert.ReferenceIdeal.nD Cert.ReferenceIdeal.τ).loc Cert.ReferenceIdeal.main_arg4)) = _
  rw [e0, e1, e2, e3, e4]
  exact (Cert.JSD.lossMasked_eq_lossSelected _ _ _ (Cert.JSD.logits_real _ _ h0 h1) (Cert.JSD.logits_real _ _ h2 h3)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
